-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S2x200000 : Shape := ⟨2, ![2, 200000]⟩
abbrev S50000x256 : Shape := ⟨2, ![50000, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S256x1 .f32) (main_arg10 : FVec F S1 .f32) (main_v33 : IVec S_ 1) : IVec S_ 1 :=
  let main_v34 : FVec F S256x1 .f32 := Host.absf main_arg9
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S256 .f32) (main_arg7 : FVec F S256x256 .f32) (main_arg8 : FVec F S256 .f32) (main_arg9 : FVec F S256x1 .f32) (main_arg10 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : IVec S2x800000 32) (main_arg1 : IVec S2x200000 32) (main_arg2 : FVec F S50000x256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x1 .f32) (main_arg10 : FVec F S1 .f32) : IVec S_ 1 :=
  let main_v0 : FVec F S50000x256 .f32 := Host.absf main_arg2
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_v13 main_v16
-- ==== Kernel.lean ====
abbrev S2x800000 : Shape := ⟨2, ![2, 800000]⟩
abbrev S2x200000 : Shape := ⟨2, ![2, 200000]⟩
abbrev S50000x256 : Shape := ⟨2, ![50000, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x256 : Shape := ⟨2, ![2000, 256]⟩
abbrev S850000x256 : Shape := ⟨2, ![850000, 256]⟩
abbrev S1x256 : Shape := ⟨2, ![1, 256]⟩
abbrev S1x200000 : Shape := ⟨2, ![1, 200000]⟩
abbrev S200000 : Shape := ⟨1, ![200000]⟩
abbrev S200000x1 : Shape := ⟨2, ![200000, 1]⟩
abbrev S200000x256 : Shape := ⟨2, ![200000, 256]⟩
abbrev S256x128 : Shape := ⟨2, ![256, 128]⟩
abbrev S128 : Shape := ⟨1, ![128]⟩
abbrev S1x128 : Shape := ⟨2, ![1, 128]⟩
abbrev S200000x128 : Shape := ⟨2, ![200000, 128]⟩
abbrev S2000x128 : Shape := ⟨2, ![2000, 128]⟩

abbrev nBuf : Space → Nat
  | .hbm => 128
  | .vmem => 21
  | .smem => 0
  | _ => 0

abbrev bufTy : (tb : Table) → Fin (tcTables nBuf tb) → BufTy
  | .hbm, ⟨0, _⟩ => ⟨S2x800000, .i32⟩
  | .hbm, ⟨1, _⟩ => ⟨S2x200000, .i32⟩
  | .hbm, ⟨2, _⟩ => ⟨S50000x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S50000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S50000x256, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x256, .f32⟩
  | .hbm, ⟨63, _⟩ => ⟨S850000x1, .f32⟩
  | .hbm, ⟨64, _⟩ => ⟨S850000x256, .f32⟩
  | .hbm, ⟨65, _⟩ => ⟨S850000x256, .f32⟩
  | .hbm, ⟨66, _⟩ => ⟨S_, .f32⟩
  | .hbm, ⟨67, _⟩ => ⟨S50000x256, .f32⟩
  | .hbm, ⟨68, _⟩ => ⟨S850000x1, .i32⟩
  | .hbm, ⟨69, _⟩ => ⟨S50000x256, .f32⟩
  | .hbm, ⟨70, _⟩ => ⟨S1x256, .f32⟩
  | .hbm, ⟨71, _⟩ => ⟨S50000x256, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x256, .f32⟩
  | .hbm, ⟨81, _⟩ => ⟨S850000x1, .f32⟩
  | .hbm, ⟨82, _⟩ => ⟨S850000x256, .f32⟩
  | .hbm, ⟨83, _⟩ => ⟨S850000x256, .f32⟩
  | .hbm, ⟨84, _⟩ => ⟨S_, .f32⟩
  | .hbm, ⟨85, _⟩ => ⟨S50000x256, .f32⟩
  | .hbm, ⟨86, _⟩ => ⟨S850000x1, .i32⟩
  | .hbm, ⟨87, _⟩ => ⟨S50000x256, .f32⟩
  | .hbm, ⟨88, _⟩ => ⟨S1x256, .f32⟩
  | .hbm, ⟨89, _⟩ => ⟨S50000x256, .f32⟩
  | .hbm, ⟨90, _⟩ => ⟨S50000x256, .f32⟩
  | .hbm, ⟨91, _⟩ => ⟨S1x200000, .i32⟩
  | .hbm, ⟨92, _⟩ => ⟨S200000, .i32⟩
  | .hbm, ⟨93, _⟩ => ⟨S_, .i32⟩
  | .hbm, ⟨94, _⟩ => ⟨S200000, .i32⟩
  | .hbm, ⟨95, _⟩ => ⟨S200000, .i1⟩
  | .hbm, ⟨96, _⟩ => ⟨S_, .i32⟩
  | .hbm, ⟨97, _⟩ => ⟨S200000, .i32⟩
  | .hbm, ⟨98, _⟩ => ⟨S200000, .i32⟩
  | .hbm, ⟨99, _⟩ => ⟨S200000, .i32⟩
  | .hbm, ⟨100, _⟩ => ⟨S200000x1, .i32⟩
  | .hbm, ⟨101, _⟩ => ⟨S200000x256, .f32⟩
  | .hbm, ⟨102, _⟩ => ⟨S1x200000, .i32⟩
  | .hbm, ⟨103, _⟩ => ⟨S200000, .i32⟩
  | .hbm, ⟨104, _⟩ => ⟨S_, .i32⟩
  | .hbm, ⟨105, _⟩ => ⟨S200000, .i32⟩
  | .hbm, ⟨106, _⟩ => ⟨S200000, .i1⟩
  | .hbm, ⟨107, _⟩ => ⟨S_, .i32⟩
  | .hbm, ⟨108, _⟩ => ⟨S200000, .i32⟩
  | .hbm, ⟨109, _⟩ => ⟨S200000, .i32⟩
  | .hbm, ⟨110, _⟩ => ⟨S200000, .i32⟩
  | .hbm, ⟨111, _⟩ => ⟨S200000x1, .i32⟩
  | .hbm, ⟨112, _⟩ => ⟨S200000x256, .f32⟩
  | .hbm, ⟨113, _⟩ => ⟨S_, .f32⟩
  | .hbm, ⟨114, _⟩ => ⟨S256x128, .f32⟩
  | .hbm, ⟨115, _⟩ => ⟨S_, .i32⟩
  | .hbm, ⟨116, _⟩ => ⟨S1, .i32⟩
  | .hbm, ⟨117, _⟩ => ⟨S256x128, .f32⟩
  | .hbm, ⟨118, _⟩ => ⟨S_, .f32⟩
  | .hbm, ⟨119, _⟩ => ⟨S128, .f32⟩
  | .hbm, ⟨120, _⟩ => ⟨S_, .i32⟩
  | .hbm, ⟨121, _⟩ => ⟨S1, .i32⟩
  | .hbm, ⟨122, _⟩ => ⟨S128, .f32⟩
  | .hbm, ⟨123, _⟩ => ⟨S1x256, .f32⟩
  | .hbm, ⟨124, _⟩ => ⟨S1x128, .f32⟩
  | .hbm, ⟨125, _⟩ => ⟨S200000x128, .f32⟩
  | .hbm, ⟨126, _⟩ => ⟨S200000x1, .f32⟩
  | .hbm, ⟨127, _⟩ => ⟨S200000, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S256x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S256x256, .f32⟩
  | .local _ .vmem, ⟨16, _⟩ => ⟨S1x256, .f32⟩
  | .local _ .vmem, ⟨17, _⟩ => ⟨S256x128, .f32⟩
  | .local _ .vmem, ⟨18, _⟩ => ⟨S1x128, .f32⟩
  | .local _ .vmem, ⟨19, _⟩ => ⟨S2000x128, .f32⟩
  | .local _ .vmem, ⟨20, _⟩ => ⟨S2000x128, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_c_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_10 : Ref sig .tc := ⟨.hbm, 72, rfl⟩
abbrev main_v47 : Ref sig .tc := ⟨.hbm, 73, rfl⟩
abbrev main_v48 : Ref sig .tc := ⟨.hbm, 74, rfl⟩
abbrev main_c_11 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_15 : Ref sig .tc := ⟨.hbm, 104, rfl⟩
abbrev main_v74 : Ref sig .tc := ⟨.hbm, 105, rfl⟩
abbrev main_v75 : Ref sig .tc := ⟨.hbm, 106, rfl⟩
abbrev main_c_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_17 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_cst_19 : Ref sig .tc := ⟨.hbm, 118, rfl⟩
abbrev main_v84 : Ref sig .tc := ⟨.hbm, 119, rfl⟩
abbrev main_c_20 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem6_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  bcast_S_S256x128 : S_.BroadcastsInDim S256x128 (![] : Fin 0 → Fin S256x128.rank)
  bcast_S_S1 : S_.BroadcastsInDim S1 (![] : Fin 0 → Fin S1.rank)
  bcast_S_S128 : S_.BroadcastsInDim S128 (![] : Fin 0 → Fin S128.rank)
  shapeCasts_S128_S1x128 : S128.ShapeCasts S1x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S200000x128_S200000x1_0_0 : S200000x128.Slices ![0, 0] S200000x1
  shapeCasts_S200000x1_S200000 : S200000x1.ShapeCasts S200000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  gather_S50000x256_S200000x1_S200000x256_1_0_n_n_0_1_1256_wf : GatherDims.WF S50000x256 S200000x1 S200000x256 [1] [0] [] [0] [] 1 ![1, 256]
  scatter_S256x128_S1_S256x1_01_n_1_0_wf : ScatterDims.WF S256x128 S1 S256x1 [0, 1] [] [1] 0
  scatter_S128_S1_S1_0_n_0_0_wf : ScatterDims.WF S128 S1 S1 [0] [] [0] 0
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S200000x256.size a
  hwx2_0 : ∀ i : grid2.Coords, EltTy.bits .f32 = 32 ∨ (Rect.block (s := S200000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S200000x256.size a
  hwx2_1 : ∀ i : grid2.Coords, EltTy.bits .f32 = 32 ∨ (Rect.block (s := S200000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .f32 = 32 ∨ (Rect.block (s := S256x128) S256x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S200000x128.size a
  hwx2_6 : ∀ i : grid2.Coords, EltTy.bits .f32 = 32 ∨ (Rect.block (s := S200000x128) S2000x128.size (cc2_transform_6 i) (hinb2_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def scatter_S256x128_S1_S256x1_01_n_1_0 : ScatterDims S256x128 S1 S256x1 where
  updateWindowDims := [0, 1]
  insertedWindowDims := []
  scatterDimsToOperandDims := [1]
  indexVectorDim := 0
  wf := scatter_S256x128_S1_S256x1_01_n_1_0_wf
def scatter_S128_S1_S1_0_n_0_0 : ScatterDims S128 S1 S1 where
  updateWindowDims := [0]
  insertedWindowDims := []
  scatterDimsToOperandDims := [0]
  indexVectorDim := 0
  wf := scatter_S128_S1_S1_0_n_0_0_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg2) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v71) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v80) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v87) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v83) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v88) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v89) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S2x800000 : Shape := ⟨2, ![2, 800000]⟩
abbrev S2x200000 : Shape := ⟨2, ![2, 200000]⟩
abbrev S50000x256 : Shape := ⟨2, ![50000, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S1x200000 : Shape := ⟨2, ![1, 200000]⟩
abbrev S200000 : Shape := ⟨1, ![200000]⟩
abbrev S200000x1 : Shape := ⟨2, ![200000, 1]⟩
abbrev S200000x256 : Shape := ⟨2, ![200000, 256]⟩
abbrev S1x1 : Shape := ⟨2, ![1, 1]⟩

abbrev nBuf : Space → Nat
  | .hbm => 139
  | .vmem => 0
  | .smem => 0
  | _ => 0

abbrev hbmTy0_0 (i : Nat) : BufTy := match i % 128 with
  | 0 => ⟨S2x800000, .i32⟩
  | 1 => ⟨S2x200000, .i32⟩
  | 2 => ⟨S50000x256, .f32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x1, .f32⟩
  | 10 => ⟨S1, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x256, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x256, .f32⟩
  | 63 => ⟨S850000x1, .f32⟩
  | 64 => ⟨S850000x256, .f32⟩
  | 65 => ⟨S850000x256, .f32⟩
  | 66 => ⟨S_, .f32⟩
  | 67 => ⟨S50000x256, .f32⟩
  | 68 => ⟨S850000x1, .i32⟩
  | 69 => ⟨S50000x256, .f32⟩
  | 70 => ⟨S1x256, .f32⟩
  | 71 => ⟨S50000x256, .f32⟩
  | 72 => ⟨S50000x256, .f32⟩
  | 73 => ⟨S_, .f32⟩
  | 74 => ⟨S50000x256, .f32⟩
  | 75 => ⟨S50000x256, .f32⟩
  | 76 => ⟨S50000x256, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000x256, .f32⟩
  | 86 => ⟨S850000x1, .f32⟩
  | 87 => ⟨S850000x256, .f32⟩
  | 88 => ⟨S850000x256, .f32⟩
  | 89 => ⟨S_, .f32⟩
  | 90 => ⟨S50000x256, .f32⟩
  | 91 => ⟨S850000x1, .i32⟩
  | 92 => ⟨S50000x256, .f32⟩
  | 93 => ⟨S1x256, .f32⟩
  | 94 => ⟨S50000x256, .f32⟩
  | 95 => ⟨S50000x256, .f32⟩
  | 96 => ⟨S1x200000, .i32⟩
  | 97 => ⟨S200000, .i32⟩
  | 98 => ⟨S_, .i32⟩
  | 99 => ⟨S200000, .i32⟩
  | 100 => ⟨S200000, .i1⟩
  | 101 => ⟨S_, .i32⟩
  | 102 => ⟨S200000, .i32⟩
  | 103 => ⟨S200000, .i32⟩
  | 104 => ⟨S200000, .i32⟩
  | 105 => ⟨S200000x1, .i32⟩
  | 106 => ⟨S200000x256, .f32⟩
  | 107 => ⟨S1x200000, .i32⟩
  | 108 => ⟨S200000, .i32⟩
  | 109 => ⟨S_, .i32⟩
  | 110 => ⟨S200000, .i32⟩
  | 111 => ⟨S200000, .i1⟩
  | 112 => ⟨S_, .i32⟩
  | 113 => ⟨S200000, .i32⟩
  | 114 => ⟨S200000, .i32⟩
  | 115 => ⟨S200000, .i32⟩
  | 116 => ⟨S200000x1, .i32⟩
  | 117 => ⟨S200000x256, .f32⟩
  | 118 => ⟨S200000x256, .f32⟩
  | 119 => ⟨S200000x256, .f32⟩
  | 120 => ⟨S1x256, .f32⟩
  | 121 => ⟨S200000x256, .f32⟩
  | 122 => ⟨S200000x256, .f32⟩
  | 123 => ⟨S_, .f32⟩
  | 124 => ⟨S200000x256, .f32⟩
  | 125 => ⟨S200000x256, .f32⟩
  | 126 => ⟨S200000x1, .f32⟩
  | 127 => ⟨S1x1, .f32⟩
  | _ => ⟨S2x800000, .i32⟩

abbrev hbmTy0_1 (i : Nat) : BufTy := match i % 128 with
  | 0 => ⟨S200000x1, .f32⟩
  | 1 => ⟨S200000x1, .f32⟩
  | 2 => ⟨S200000x1, .f32⟩
  | 3 => ⟨S200000x1, .f32⟩
  | 4 => ⟨S_, .f32⟩
  | 5 => ⟨S200000x1, .f32⟩
  | 6 => ⟨S200000x1, .f32⟩
  | 7 => ⟨S_, .f32⟩
  | 8 => ⟨S200000x1, .f32⟩
  | 9 => ⟨S200000x1, .f32⟩
  | 10 => ⟨S200000, .f32⟩
  | _ => ⟨S2x800000, .i32⟩

abbrev hbmTy (i : Nat) : BufTy := match i / 128 with
  | 0 => hbmTy0_0 i
  | 1 => hbmTy0_1 i
  | _ => ⟨S2x800000, .i32⟩

abbrev bufTy : (tb : Table) → Fin (tcTables nBuf tb) → BufTy
  | .hbm, ⟨i, _⟩ => hbmTy i
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_c_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call1_cst : Ref sig .tc := ⟨.hbm, 73, rfl⟩
abbrev main_call1_v0 : Ref sig .tc := ⟨.hbm, 74, rfl⟩
abbrev main_v48 : Ref sig .tc := ⟨.hbm, 75, rfl⟩
abbrev main_v49 : Ref sig .tc := ⟨.hbm, 76, rfl⟩
abbrev main_c_10 : Ref sig .tc := ⟨.hbm, 77, rfl⟩
abbrev main_v50 : Ref sig .tc := ⟨.hbm, 78, rfl⟩
abbrev main_v51 : Ref sig .tc := ⟨.hbm, 79, rfl⟩
abbrev main_c_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_13 : Ref sig .tc := ⟨.hbm, 98, rfl⟩
abbrev main_v68 : Ref sig .tc := ⟨.hbm, 99, rfl⟩
abbrev main_v69 : Ref sig .tc := ⟨.hbm, 100, rfl⟩
abbrev main_c_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_15 : Ref sig .tc := ⟨.hbm, 109, rfl⟩
abbrev main_v77 : Ref sig .tc := ⟨.hbm, 110, rfl⟩
abbrev main_v78 : Ref sig .tc := ⟨.hbm, 111, rfl⟩
abbrev main_c_16 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_call2_cst : Ref sig .tc := ⟨.hbm, 123, rfl⟩
abbrev main_call2_v0 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_17 : Ref sig .tc := ⟨.hbm, 132, rfl⟩
abbrev main_v96 : Ref sig .tc := ⟨.hbm, 133, rfl⟩
abbrev main_v97 : Ref sig .tc := ⟨.hbm, 134, rfl⟩
abbrev main_cst_18 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  shapeCasts_S200000x1_S200000 : S200000x1.ShapeCasts S200000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  gather_S50000x256_S200000x1_S200000x256_1_0_n_n_0_1_1256_wf : GatherDims.WF S50000x256 S200000x1 S200000x256 [1] [0] [] [0] [] 1 ![1, 256]
  dot_S200000x256_S256x256_S200000x256_1_0_0_1_n_n_wf : DotDims.WF S200000x256 S256x256 S200000x256 [1] [0] [0] [1] [] []
  dot_S200000x256_S256x1_S200000x1_1_0_0_1_n_n_wf : DotDims.WF S200000x256 S256x1 S200000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def dot_S200000x256_S256x1_S200000x1_1_0_0_1_n_n : DotDims S200000x256 S256x1 S200000x1 where
  lhsContracting := [1]
  rhsContracting := [0]
  lhsNonContracting := [0]
  rhsNonContracting := [1]
  lhsBatch := []
  rhsBatch := []
  wf := dot_S200000x256_S256x1_S200000x1_1_0_0_1_n_n_wf

class Facts : Prop extends Facts₀ where

variable [Facts]
-- ==== Proof.KernelRun.lean ====
/-
  The idealized kernel program run to its end, with the result array named.

  The program is three tiled regions among four stretches of host operations. Its run passes through nine boundaries;
  at each one the contents of every buffer are a fold of what came before: a stretch applies its operations, a region
  replaces its arrays by what its write-backs leave and keeps every other buffer. The last of these contents, read at
  the buffer the program returns and at the argument buffers, is what every terminating execution ends with: the
  result buffer at the last fold, the arguments as launched.
-/
import proofs.«107415_j44504451121629_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the returned buffer at the contents
    of the last boundary and every argument buffer as launched. -/
theorem run_result : θ_run defs (onTc (τ := τ) (main (F := F))) ⟨m, fun _ => 0, ρ⟩ (fun r => ∀ c : Dev nD,
      r.2.mem ((c.tc : Thread nD τ).loc main_v91) = W9 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v91 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.WholeRun

end
-- ==== Proof.LibDotPlain.lean ====
/-
  A matrix product with one contracted axis, read at an entry.

  For dimension numbers `D` of a product [N, K] × [K, M] → [N, M] that contract the left operand's axis 1 against the
  right operand's axis 0, the sum over the contraction's index set of the products of the operands read at `D`'s operand
  indices is the plain sum over `k : Fin K` of `l (p, k) · r (k, q)`. The four hypotheses say where `D` reads its
  operands, coordinate by coordinate; for printed dimension numbers each is one line (the two non-contracted
  coordinates by unfolding the index function, the two contracted ones by `DotDims.lhsIdx_val_of_single` and
  `DotDims.rhsIdx_val_of_single`).
-/
import Idealize.ShloMosaic.PureOps.Ideal
import Idealize.ShloMosaic.PureOps.Ideal.Laws
import Idealize.ShloMosaic.Lib.ValueIdx

noncomputable section

open scoped BigOperators

namespace Cert.LibDotPlain

open Idealize.ShloMosaic Idealize.ShloMosaic.ValueIdx

/-- The contraction's sum, re-indexed by the contracted coordinate. -/
theorem sum_contr_plain {N K M : Nat} {α : Type} [AddCommMonoid α] [Mul α]
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (l : (⟨2, ![N, K]⟩ : Shape).Idx → α) (r : (⟨2, ![K, M]⟩ : Shape).Idx → α) (p : Fin N) (q : Fin M) :
    ∑ k : D.contr.Idx, l (D.lhsIdx (ix2 p q) k) * r (D.rhsIdx (ix2 p q) k) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A matrix-unit product into a zero accumulator, at the extended reals, read at entry (p, q). -/
theorem matmul_zero_plain {N K M : Nat} {φ₁ φ₂ : FTy}
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (prec : Option ContractPrecision)
    (l : FVec Ideal ⟨2, ![N, K]⟩ φ₁) (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  (Ideal.matmul_constant_zero_apply D prec l r (ix2 p q)).trans (sum_contr_plain D hr hs hl0 hl1 hr0 hr1 l r p q)

end Cert.LibDotPlain

end
-- ==== Proof.Region0.lean ====
/-
  Region 0: the first linear layer, one row block at a time.

  The region walks 25 grid points. At point t it stages rows 2000·t … 2000·t + 1999 of the left array
  (50000 × 256), the whole right array (256 × 256), and writes back rows 2000·t … 2000·t + 1999 of the product.
  A block of the left array or of the product is therefore 2000 consecutive rows, all 256 columns; an element
  at (p, q) inside block t sits at (2000·t + p, q) in the array. The right array's only block is the array.

  The body rounds both blocks (the identity on the extended reals), and stores their matrix product, accumulated
  into zero, over the whole output block. So entry (r, q) of the product's array is the sum over k of
  left (r, k) · right (k, q): it depends on row r of the left array and column q of the right one only. The row
  blocks tile the 50000 rows (the block holding row r is block r / 2000), so every entry is written exactly by
  the point whose block holds its row, with that formula.
-/
import proofs.«107415_j44504451121629_1_alg».proof.Proof.Gen.KernelIdeal.Frame
import Idealize.ShloMosaic.Lib.ValueIdx
import Idealize.ShloMosaic.Lib.Pipeline.Value
import Idealize.ShloMosaic.PureOps.Ideal.Laws
import proofs.«107415_j44504451121629_1_alg».proof.Proof.LibDotPlain
set_option maxRecDepth 16384

noncomputable section

open scoped BigOperators

namespace Cert.KernelIdeal.Regions

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## The product's dimension record, coordinate by coordinate

The record contracts the left operand's axis 1 against the right operand's axis 0 and keeps the left operand's
axis 0 and the right operand's axis 1, in that order, as the result's axes. -/

/-- The left operand is read at the result's row. -/
theorem dot0_lhs_row (i : S2000x256.Idx) (k : dot_S2000x256_S256x256_S2000x256_1_0_0_1_n_n.contr.Idx) :
    (dot_S2000x256_S256x256_S2000x256_1_0_0_1_n_n.lhsIdx i k 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl

/-- The left operand's column is the contracted index. -/
theorem dot0_lhs_col (i : S2000x256.Idx) (k : dot_S2000x256_S256x256_S2000x256_1_0_0_1_n_n.contr.Idx) :
    (dot_S2000x256_S256x256_S2000x256_1_0_0_1_n_n.lhsIdx i k 1).val = (k ⟨0, by decide⟩).val :=
  dot_S2000x256_S256x256_S2000x256_1_0_0_1_n_n.lhsIdx_val_of_single rfl i k

/-- The right operand's row is the contracted index. -/
theorem dot0_rhs_row (i : S2000x256.Idx) (k : dot_S2000x256_S256x256_S2000x256_1_0_0_1_n_n.contr.Idx) :
    (dot_S2000x256_S256x256_S2000x256_1_0_0_1_n_n.rhsIdx i k 0).val = (k ⟨0, by decide⟩).val :=
  dot_S2000x256_S256x256_S2000x256_1_0_0_1_n_n.rhsIdx_val_of_single rfl i k

/-- The right operand is read at the result's column. -/
theorem dot0_rhs_col (i : S2000x256.Idx) (k : dot_S2000x256_S256x256_S2000x256_1_0_0_1_n_n.contr.Idx) :
    (dot_S2000x256_S256x256_S2000x256_1_0_0_1_n_n.rhsIdx i k 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-! ## The body's arithmetic at an entry -/

/-- Entry (p, q) of what the body stores: row p of the left block against column q of the right block
    (the two roundings are the identity on the extended reals; the accumulator is zero). -/
theorem pay0_at (x0 : Vec Ideal S2000x256 .f32) (x1 : Vec Ideal S256x256 .f32) (p : Fin 2000) (q : Fin 256) :
    k0_pay1 x0 x1 (ix2 p q) = ∑ k : Fin 256, x0 (ix2 p k) * x1 (ix2 k q) := by
  unfold k0_pay1
  exact Cert.LibDotPlain.matmul_zero_plain dot_S2000x256_S256x256_S2000x256_1_0_0_1_n_n rfl rfl
    dot0_lhs_row dot0_lhs_col dot0_rhs_row dot0_rhs_col none _ _ p q

/-! ## From blocks to the array -/

/-- The body's accesses start at the corner of their blocks. -/
theorem zero_corner : (![0, 0] : Fin 2 → Nat) = fun _ => 0 := funext fun a => by fin_cases a <;> rfl

/-- The product of the two arrays, entry by entry: row (i 0) of the left against column (i 1) of the right. -/
def prod0 (A : S50000x256.Idx → EReal) (B : S256x256.Idx → EReal) : S50000x256.Idx → EReal :=
  fun i => ∑ k : Fin 256, A (ix2 (n0 := 50000) (i 0) k) * B (ix2 (n1 := 256) k (i 1))

/-- The block indices, decided over the 25 points: at point t the left array's block and the product's block are
    row block t (column block 0); the right array's block is always block (0, 0). -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left block at point t is rows 2000·t … 2000·t + 1999 of the left array: its entry y is the array's
    entry z whenever z's row is 2000·t + y's row and the columns agree. -/
theorem left_block0 (c : Dev nD) (t : Fin cfg0.N) (y : S2000x256.Idx) (z : S50000x256.Idx)
    (hz0 : (z 0).val = t.val * 2000 + (y 0).val) (hz1 : (z 1).val = (y 1).val) :
    (iblk0 V c 0 t : Vec Ideal S2000x256 .f32) y = (V c main_arg2 : S50000x256.Idx → EReal) z := by
  obtain ⟨e0, e1, -, -, -, -⟩ := block_index0 t
  unfold iblk0
  rw [View.read_apply]
  show V c main_arg2 _ = V c main_arg2 _
  congr 1
  funext a
  apply Fin.ext
  match a with
  | ⟨0, _⟩ => show win0_0.index t 0 * 2000 + 1 * (y 0).val = (z 0).val; rw [e0, hz0]; omega
  | ⟨1, _⟩ => show win0_0.index t 1 * 256 + 1 * (y 1).val = (z 1).val; rw [e1, hz1]; omega

/-- The right block at every point is the right array. -/
theorem right_block0 (c : Dev nD) (t : Fin cfg0.N) (y : S256x256.Idx) :
    (iblk0 V c 1 t : Vec Ideal S256x256 .f32) y = (V c main_arg3 : S256x256.Idx → EReal) y := by
  obtain ⟨-, -, e2, e3, -, -⟩ := block_index0 t
  unfold iblk0
  rw [View.read_apply]
  show V c main_arg3 _ = V c main_arg3 _
  congr 1
  funext a
  apply Fin.ext
  match a with
  | ⟨0, _⟩ => show win0_1.index t 0 * 256 + 1 * (y 0).val = (y 0).val; rw [e2]; omega
  | ⟨1, _⟩ => show win0_1.index t 1 * 256 + 1 * (y 1).val = (y 1).val; rw [e3]; omega

/-- What the body stores, over blocks that are rows T·2000 … of a left array A and the whole of a right array B,
    is at each entry j the product of A and B at the array entry i that j sits at. -/
theorem pay0_block (x0 : Vec Ideal S2000x256 .f32) (x1 : Vec Ideal S256x256 .f32)
    (A : S50000x256.Idx → EReal) (B : S256x256.Idx → EReal) (T : Nat) (j : S2000x256.Idx) (i : S50000x256.Idx)
    (hi0 : (i 0).val = T * 2000 + (j 0).val) (hi1 : (i 1).val = (j 1).val)
    (h0 : ∀ (y : S2000x256.Idx) (z : S50000x256.Idx), (z 0).val = T * 2000 + (y 0).val → (z 1).val = (y 1).val → x0 y = A z)
    (h1 : ∀ y : S256x256.Idx, x1 y = B y) :
    k0_pay1 x0 x1 j = prod0 A B i := by
  obtain ⟨p, q, rfl⟩ : ∃ (p : Fin 2000) (q : Fin 256), j = ix2 p q := ⟨j 0, j 1, eq_ix2 j⟩
  rw [pay0_at]
  unfold prod0
  refine Finset.sum_congr rfl fun k _ => ?_
  have hq : (i 1 : Fin 256) = q := Fin.ext hi1
  rw [h0 (ix2 p k) (ix2 (n0 := 50000) (i 0) k) hi0 rfl, h1, hq]

/-- WHAT POINT t WRITES BACK is block t of the product of the two arrays as the region finds them. -/
theorem flushed0_eq (c : Dev nD) (t : Fin cfg0.N) :
    (dat0 (F := Ideal) V c).flushed 2 t
      = ((cfg0.win 2).blk t).view.read (Elt Ideal) (prod0 (V c main_arg2) (V c main_arg3)) := by
  show (cfg0.win 2).cut (grid0.coords t) ((dat0 V c).after 2 t) = _
  rw [after0_2]
  unfold out0_2
  rw [View.canon_unit_zero zero_corner]
  simp only [View.ld_unit_zero (S := S2000x256) zero_corner, View.ld_unit_zero (S := S256x256) zero_corner]
  obtain ⟨-, -, -, -, e4, e5⟩ := block_index0 t
  funext j
  show k0_pay1 (iblk0 V c 0 t) (iblk0 V c 1 t) j = prod0 (V c main_arg2) (V c main_arg3) (((cfg0.win 2).blk t).view.emb j)
  refine pay0_block _ _ _ _ t.val j _ ?_ ?_ (left_block0 V c t) (right_block0 V c t)
  · show win0_2.index t 0 * 2000 + 1 * (j 0).val = _; rw [e4]; omega
  · show win0_2.index t 1 * 256 + 1 * (j 1).val = _; rw [e5]; omega

/-- An entry of the product's array is in point t's block iff each coordinate is in the block's range on its axis. -/
theorem mem_block0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v31).slice (win0_2.rect t)).set ↔ _
  rw [View.set_slice_whole, Rect.mem_set_unit]
  exact Iff.rfl

/-- The row blocks tile the array: the entry in row r is in the block of point r / 2000, and every point writes back. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 :=
    ⟨⟨(i 0).val / 2000, Nat.lt_of_lt_of_eq (by omega : (i 0).val / 2000 < 25) hN.symm⟩, rfl⟩
  obtain ⟨-, -, -, -, e4, e5⟩ := block_index0 t
  refine ⟨t, flush0_2 t, ?_⟩
  rw [mem_block0]
  intro a
  match a with
  | ⟨0, _⟩ => show win0_2.index t 0 * 2000 ≤ (i 0).val ∧ (i 0).val < win0_2.index t 0 * 2000 + 2000; rw [e4, ht]; omega
  | ⟨1, _⟩ => show win0_2.index t 1 * 256 ≤ (i 1).val ∧ (i 1).val < win0_2.index t 1 * 256 + 256; rw [e5]; omega

/-- THE ARRAY after the region: the product of the two arrays as the region finds them. -/
theorem arr0_eq (c : Dev nD) :
    (dat0 (F := Ideal) V c).arrAt 2 cfg0.N = prod0 (V c main_arg2) (V c main_arg3) :=
  (dat0 V c).arrAt_eq_of_cover 2 (prod0 (V c main_arg2) (V c main_arg3)) (fun t _ => flushed0_eq V c t) cover0

/-- Region 0 (the first linear layer): after the region, entry (r, q) of the product's array is the row of the
    left array against the column of the right one. The arrays are named by variables of their literal types: pass `rfl`. -/
theorem arr0_at (c : Dev nD) (A : S50000x256.Idx → EReal) (B : S256x256.Idx → EReal) (O : S50000x256.Idx → EReal)
    (hA : V c main_arg2 = A) (hB : V c main_arg3 = B) (hO : (dat0 (F := Ideal) V c).arrAt 2 cfg0.N = O)
    (r : Fin 50000) (q : Fin 256) :
    O (ix2 r q) = ∑ k : Fin 256, A (ix2 r k) * B (ix2 k q) := by
  subst hA hB hO
  exact congrFun (arr0_eq V c) (ix2 r q)

end Cert.KernelIdeal.Regions

end
-- ==== Proof.Region1.lean ====
/-
  Region 1: bias, rectifier and the second linear layer, one row block at a time.

  The region walks 25 grid points. At point t it stages rows 2000·t … 2000·t + 1999 of the left array
  (50000 × 256), the whole bias row (1 × 256), the whole right array (256 × 256), and writes back rows
  2000·t … 2000·t + 1999 of the result. A block of the left array or of the result is 2000 consecutive rows, all
  256 columns; an element at (p, q) inside block t sits at (2000·t + p, q) in the array. The bias row's and the
  right array's only block is the array itself.

  The body adds the bias row to every row of the left block, takes the maximum with zero entry by entry, rounds
  (the identity on the extended reals), and stores the matrix product of that with the rounded right block,
  accumulated into zero, over the whole output block. So entry (r, q) of the result's array is the sum over k of
  max (left (r, k) + bias (0, k), 0) · right (k, q): it depends on row r of the left array, on the bias row and
  on column q of the right array only. The row blocks tile the 50000 rows (the block holding row r is block
  r / 2000), so every entry is written by the point whose block holds its row, with that formula.
-/
import proofs.«107415_j44504451121629_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import proofs.«107415_j44504451121629_1_alg».proof.Proof.LibDotPlain
set_option maxRecDepth 16384

noncomputable section

open scoped BigOperators

namespace Cert.KernelIdeal.Regions

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## The product's dimension record, coordinate by coordinate

The record contracts the left operand's axis 1 against the right operand's axis 0 and keeps the left operand's
axis 0 and the right operand's axis 1, in that order, as the result's axes. -/

/-- The left operand is read at the result's row. -/
theorem dot1_lhs_row (i : S2000x256.Idx) (k : dot_S2000x256_S256x256_S2000x256_1_0_0_1_n_n.contr.Idx) :
    (dot_S2000x256_S256x256_S2000x256_1_0_0_1_n_n.lhsIdx i k 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl

/-- The left operand's column is the contracted index. -/
theorem dot1_lhs_col (i : S2000x256.Idx) (k : dot_S2000x256_S256x256_S2000x256_1_0_0_1_n_n.contr.Idx) :
    (dot_S2000x256_S256x256_S2000x256_1_0_0_1_n_n.lhsIdx i k 1).val = (k ⟨0, by decide⟩).val :=
  dot_S2000x256_S256x256_S2000x256_1_0_0_1_n_n.lhsIdx_val_of_single rfl i k

/-- The right operand's row is the contracted index. -/
theorem dot1_rhs_row (i : S2000x256.Idx) (k : dot_S2000x256_S256x256_S2000x256_1_0_0_1_n_n.contr.Idx) :
    (dot_S2000x256_S256x256_S2000x256_1_0_0_1_n_n.rhsIdx i k 0).val = (k ⟨0, by decide⟩).val :=
  dot_S2000x256_S256x256_S2000x256_1_0_0_1_n_n.rhsIdx_val_of_single rfl i k

/-- The right operand is read at the result's column. -/
theorem dot1_rhs_col (i : S2000x256.Idx) (k : dot_S2000x256_S256x256_S2000x256_1_0_0_1_n_n.contr.Idx) :
    (dot_S2000x256_S256x256_S2000x256_1_0_0_1_n_n.rhsIdx i k 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-! ## The body's arithmetic at an entry -/

/-- Entry (p, q) of what the body stores: row p of the left block, with the bias row added and the maximum with
    zero taken entry by entry, against column q of the right block (the casts to the same shape and the two
    roundings are the identity; the bias row is read at its one row; the accumulator is zero). -/
theorem pay1_at (x0 : Vec Ideal S2000x256 .f32) (x1 : Vec Ideal S1x256 .f32) (x2 : Vec Ideal S256x256 .f32)
    (p : Fin 2000) (q : Fin 256) :
    k1_pay1 x0 x1 x2 (ix2 p q) = ∑ k : Fin 256, max (x0 (ix2 p k) + x1 (ix2 0 k)) 0 * x2 (ix2 k q) := by
  unfold k1_pay1
  refine (Cert.LibDotPlain.matmul_zero_plain dot_S2000x256_S256x256_S2000x256_1_0_0_1_n_n rfl rfl
    dot1_lhs_row dot1_lhs_col dot1_rhs_row dot1_rhs_col none _ _ p q).trans ?_
  refine Finset.sum_congr rfl fun k _ => ?_
  rw [truncf_apply, truncf_apply, maximumf_apply, addf_apply, broadcast_apply, shapeCast_self, shapeCast_self,
    broadcastTo_1b_ab_apply]
  show max (x0 (ix2 p k) + x1 (ix2 0 k)) (Ideal.ofBits .f32 0x00000000#32) * _ = _
  rw [Ideal.ofBits_zero_f32]

/-! ## From blocks to the array -/

/-- The body's accesses start at the corner of their blocks. -/
theorem zero_corner1 : (![0, 0] : Fin 2 → Nat) = fun _ => 0 := funext fun a => by fin_cases a <;> rfl

/-- The result array, entry by entry: row (i 0) of the left array with the bias row added and the maximum with
    zero taken, against column (i 1) of the right array. -/
def prod1 (A : S50000x256.Idx → EReal) (b : S1x256.Idx → EReal) (B : S256x256.Idx → EReal) : S50000x256.Idx → EReal :=
  fun i => ∑ k : Fin 256, max (A (ix2 (n0 := 50000) (i 0) k) + b (ix2 (n0 := 1) 0 k)) 0 * B (ix2 (n1 := 256) k (i 1))

/-- The block indices, decided over the 25 points: at point t the left array's block and the result's block are
    row block t (column block 0); the bias row's and the right array's block is always block (0, 0). -/
theorem block_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The left block at point t is rows 2000·t … 2000·t + 1999 of the left array: its entry y is the array's
    entry z whenever z's row is 2000·t + y's row and the columns agree. -/
theorem left_block1 (c : Dev nD) (t : Fin cfg1.N) (y : S2000x256.Idx) (z : S50000x256.Idx)
    (hz0 : (z 0).val = t.val * 2000 + (y 0).val) (hz1 : (z 1).val = (y 1).val) :
    (iblk1 V c 0 t : Vec Ideal S2000x256 .f32) y = (V c main_v44 : S50000x256.Idx → EReal) z := by
  obtain ⟨e0, e1, -, -, -, -, -, -⟩ := block_index1 t
  unfold iblk1
  rw [View.read_apply]
  show V c main_v44 _ = V c main_v44 _
  congr 1
  funext a
  apply Fin.ext
  match a with
  | ⟨0, _⟩ => show win1_0.index t 0 * 2000 + 1 * (y 0).val = (z 0).val; rw [e0, hz0]; omega
  | ⟨1, _⟩ => show win1_0.index t 1 * 256 + 1 * (y 1).val = (z 1).val; rw [e1, hz1]; omega

/-- The bias block at every point is the bias row. -/
theorem bias_block1 (c : Dev nD) (t : Fin cfg1.N) (y : S1x256.Idx) :
    (iblk1 V c 1 t : Vec Ideal S1x256 .f32) y = (V c main_v45 : S1x256.Idx → EReal) y := by
  obtain ⟨-, -, e2, e3, -, -, -, -⟩ := block_index1 t
  unfold iblk1
  rw [View.read_apply]
  show V c main_v45 _ = V c main_v45 _
  congr 1
  funext a
  apply Fin.ext
  match a with
  | ⟨0, _⟩ => show win1_1.index t 0 * 1 + 1 * (y 0).val = (y 0).val; rw [e2]; omega
  | ⟨1, _⟩ => show win1_1.index t 1 * 256 + 1 * (y 1).val = (y 1).val; rw [e3]; omega

/-- The right block at every point is the right array. -/
theorem right_block1 (c : Dev nD) (t : Fin cfg1.N) (y : S256x256.Idx) :
    (iblk1 V c 2 t : Vec Ideal S256x256 .f32) y = (V c main_arg5 : S256x256.Idx → EReal) y := by
  obtain ⟨-, -, -, -, e4, e5, -, -⟩ := block_index1 t
  unfold iblk1
  rw [View.read_apply]
  show V c main_arg5 _ = V c main_arg5 _
  congr 1
  funext a
  apply Fin.ext
  match a with
  | ⟨0, _⟩ => show win1_2.index t 0 * 256 + 1 * (y 0).val = (y 0).val; rw [e4]; omega
  | ⟨1, _⟩ => show win1_2.index t 1 * 256 + 1 * (y 1).val = (y 1).val; rw [e5]; omega

/-- What the body stores, over blocks that are rows T·2000 … of a left array A, the whole of a bias row b and the
    whole of a right array B, is at each entry j the result array at the array entry i that j sits at. -/
theorem pay1_block (x0 : Vec Ideal S2000x256 .f32) (x1 : Vec Ideal S1x256 .f32) (x2 : Vec Ideal S256x256 .f32)
    (A : S50000x256.Idx → EReal) (b : S1x256.Idx → EReal) (B : S256x256.Idx → EReal)
    (T : Nat) (j : S2000x256.Idx) (i : S50000x256.Idx)
    (hi0 : (i 0).val = T * 2000 + (j 0).val) (hi1 : (i 1).val = (j 1).val)
    (h0 : ∀ (y : S2000x256.Idx) (z : S50000x256.Idx), (z 0).val = T * 2000 + (y 0).val → (z 1).val = (y 1).val → x0 y = A z)
    (h1 : ∀ y : S1x256.Idx, x1 y = b y) (h2 : ∀ y : S256x256.Idx, x2 y = B y) :
    k1_pay1 x0 x1 x2 j = prod1 A b B i := by
  obtain ⟨p, q, rfl⟩ : ∃ (p : Fin 2000) (q : Fin 256), j = ix2 p q := ⟨j 0, j 1, eq_ix2 j⟩
  rw [pay1_at]
  unfold prod1
  refine Finset.sum_congr rfl fun k _ => ?_
  have hq : (i 1 : Fin 256) = q := Fin.ext hi1
  rw [h0 (ix2 p k) (ix2 (n0 := 50000) (i 0) k) hi0 rfl, h1, h2, hq]

/-- WHAT POINT t WRITES BACK is block t of the result array of the three arrays as the region finds them. -/
theorem flushed1_eq (c : Dev nD) (t : Fin cfg1.N) :
    (dat1 (F := Ideal) V c).flushed 3 t
      = ((cfg1.win 3).blk t).view.read (Elt Ideal) (prod1 (V c main_v44) (V c main_v45) (V c main_arg5)) := by
  show (cfg1.win 3).cut (grid1.coords t) ((dat1 V c).after 3 t) = _
  rw [after1_3]
  unfold out1_3
  rw [View.canon_unit_zero zero_corner1]
  simp only [View.ld_unit_zero (S := S2000x256) zero_corner1, View.ld_unit_zero (S := S1x256) zero_corner1,
    View.ld_unit_zero (S := S256x256) zero_corner1]
  obtain ⟨-, -, -, -, -, -, e6, e7⟩ := block_index1 t
  funext j
  show k1_pay1 (iblk1 V c 0 t) (iblk1 V c 1 t) (iblk1 V c 2 t) j
    = prod1 (V c main_v44) (V c main_v45) (V c main_arg5) (((cfg1.win 3).blk t).view.emb j)
  refine pay1_block _ _ _ _ _ _ t.val j _ ?_ ?_ (left_block1 V c t) (bias_block1 V c t) (right_block1 V c t)
  · show win1_3.index t 0 * 2000 + 1 * (j 0).val = _; rw [e6]; omega
  · show win1_3.index t 1 * 256 + 1 * (j 1).val = _; rw [e7]; omega

/-- An entry of the result's array is in point t's block iff each coordinate is in the block's range on its axis. -/
theorem mem_block1 (t : Fin cfg1.N) (i : S50000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v46).slice (win1_3.rect t)).set ↔ _
  rw [View.set_slice_whole, Rect.mem_set_unit]
  exact Iff.rfl

/-- The row blocks tile the array: the entry in row r is in the block of point r / 2000, and every point writes back. -/
theorem cover1 (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 25 := N_1
  obtain ⟨t, ht⟩ : ∃ t : Fin cfg1.N, t.val = (i 0).val / 2000 :=
    ⟨⟨(i 0).val / 2000, Nat.lt_of_lt_of_eq (by omega : (i 0).val / 2000 < 25) hN.symm⟩, rfl⟩
  obtain ⟨-, -, -, -, -, -, e6, e7⟩ := block_index1 t
  refine ⟨t, flush1_3 t, ?_⟩
  rw [mem_block1]
  intro a
  match a with
  | ⟨0, _⟩ => show win1_3.index t 0 * 2000 ≤ (i 0).val ∧ (i 0).val < win1_3.index t 0 * 2000 + 2000; rw [e6, ht]; omega
  | ⟨1, _⟩ => show win1_3.index t 1 * 256 ≤ (i 1).val ∧ (i 1).val < win1_3.index t 1 * 256 + 256; rw [e7]; omega

/-- THE ARRAY after the region: the result array of the three arrays as the region finds them. -/
theorem arr1_eq (c : Dev nD) :
    (dat1 (F := Ideal) V c).arrAt 3 cfg1.N = prod1 (V c main_v44) (V c main_v45) (V c main_arg5) :=
  (dat1 V c).arrAt_eq_of_cover 3 (prod1 (V c main_v44) (V c main_v45) (V c main_arg5)) (fun t _ => flushed1_eq V c t) cover1

/-- Region 1 (bias, rectifier, second linear layer). `b` is the bias as a [1, 256] row. -/
theorem arr1_at (c : Dev nD) (A : S50000x256.Idx → EReal) (b : S1x256.Idx → EReal) (B : S256x256.Idx → EReal) (O : S50000x256.Idx → EReal)
    (hA : V c main_v44 = A) (hb : V c main_v45 = b) (hB : V c main_arg5 = B) (hO : (dat1 (F := Ideal) V c).arrAt 3 cfg1.N = O)
    (r : Fin 50000) (q : Fin 256) :
    O (ix2 r q) = ∑ k : Fin 256, max (A (ix2 r k) + b (ix2 0 k)) 0 * B (ix2 k q) := by
  subst hA hb hB hO
  exact congrFun (arr1_eq V c) (ix2 r q)

end Cert.KernelIdeal.Regions

end
-- ==== Proof.Region2.lean ====
/-
  Region 2: the predictor.

  The region computes, for every row r < 200000 and column q < 128,
      out (r, q) = logistic ( ∑ k < 256, max ( ∑ j < 256, (X0 (r, j) · X1 (r, j)) · P1 (j, k) + b1 (0, k) ) 0 · P2 (k, q) + b2 (0, q) ),
  a hidden layer of 256 units on the elementwise product of two rows, clipped below at 0, an output layer 128 columns
  wide, and the logistic function. At the extended reals every operation is exact and a change of float format is the
  identity, so each matrix product into a zero accumulator is the plain sum over its contracted axis.

  The grid has 100 points. At point t the two left arrays X0, X1 (200000 × 256) are staged as their row block
  [2000 t, 2000 t + 2000) × [0, 256), the output (200000 × 128) as its row block [2000 t, 2000 t + 2000) × [0, 128); the
  weights P1 (256 × 256), P2 (256 × 128) and the bias rows b1 (1 × 256), b2 (1 × 128) are staged whole at every point.
  Entry (p, q) of the output block at point t depends on row p of the two left blocks only, which is row 2000 t + p of
  the two left arrays; so the block written back at point t is block t of one function of the six arrays, and since
  the 100 row blocks tile the 200000 rows (row r lies in block r / 2000) the output array ends as that function.
-/
import proofs.«107415_j44504451121629_1_alg».proof.Proof.Gen.KernelIdeal.Frame
import Idealize.ShloMosaic.Lib.ValueIdx
import Idealize.ShloMosaic.Lib.ValueLayout
import Idealize.ShloMosaic.PureOps.Ideal.Laws
import proofs.«107415_j44504451121629_1_alg».proof.Proof.LibDotPlain
set_option maxRecDepth 16384

noncomputable section

open scoped BigOperators

namespace Cert.KernelIdeal.Regions

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## The two matrix products: where their dimension records read the operands

Both records contract the left operand's axis 1 against the right operand's axis 0: the left operand is read at
(row of the entry, contracted index), the right operand at (contracted index, column of the entry). -/

theorem pred_hidden_l0 (i : S2000x256.Idx) (k : dot_S2000x256_S256x256_S2000x256_1_0_0_1_n_n.contr.Idx) : (dot_S2000x256_S256x256_S2000x256_1_0_0_1_n_n.lhsIdx i k 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem pred_hidden_l1 (i : S2000x256.Idx) (k : dot_S2000x256_S256x256_S2000x256_1_0_0_1_n_n.contr.Idx) : (dot_S2000x256_S256x256_S2000x256_1_0_0_1_n_n.lhsIdx i k 1).val = (k ⟨0, by decide⟩).val :=
  dot_S2000x256_S256x256_S2000x256_1_0_0_1_n_n.lhsIdx_val_of_single rfl i k
theorem pred_hidden_r0 (i : S2000x256.Idx) (k : dot_S2000x256_S256x256_S2000x256_1_0_0_1_n_n.contr.Idx) : (dot_S2000x256_S256x256_S2000x256_1_0_0_1_n_n.rhsIdx i k 0).val = (k ⟨0, by decide⟩).val :=
  dot_S2000x256_S256x256_S2000x256_1_0_0_1_n_n.rhsIdx_val_of_single rfl i k
theorem pred_hidden_r1 (i : S2000x256.Idx) (k : dot_S2000x256_S256x256_S2000x256_1_0_0_1_n_n.contr.Idx) : (dot_S2000x256_S256x256_S2000x256_1_0_0_1_n_n.rhsIdx i k 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

theorem pred_outer_l0 (i : S2000x128.Idx) (k : dot_S2000x256_S256x128_S2000x128_1_0_0_1_n_n.contr.Idx) : (dot_S2000x256_S256x128_S2000x128_1_0_0_1_n_n.lhsIdx i k 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem pred_outer_l1 (i : S2000x128.Idx) (k : dot_S2000x256_S256x128_S2000x128_1_0_0_1_n_n.contr.Idx) : (dot_S2000x256_S256x128_S2000x128_1_0_0_1_n_n.lhsIdx i k 1).val = (k ⟨0, by decide⟩).val :=
  dot_S2000x256_S256x128_S2000x128_1_0_0_1_n_n.lhsIdx_val_of_single rfl i k
theorem pred_outer_r0 (i : S2000x128.Idx) (k : dot_S2000x256_S256x128_S2000x128_1_0_0_1_n_n.contr.Idx) : (dot_S2000x256_S256x128_S2000x128_1_0_0_1_n_n.rhsIdx i k 0).val = (k ⟨0, by decide⟩).val :=
  dot_S2000x256_S256x128_S2000x128_1_0_0_1_n_n.rhsIdx_val_of_single rfl i k
theorem pred_outer_r1 (i : S2000x128.Idx) (k : dot_S2000x256_S256x128_S2000x128_1_0_0_1_n_n.contr.Idx) : (dot_S2000x256_S256x128_S2000x128_1_0_0_1_n_n.rhsIdx i k 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-! ## The stored value at an entry of the block -/

/-- The hidden layer's product into a zero accumulator, entry (p, q): the plain sum over the 256 contracted columns. -/
theorem pred_hidden_at (l : FVec Ideal S2000x256 .bf16) (r : FVec Ideal S256x256 .bf16) (p : Fin 2000) (q : Fin 256) :
    FloatOps.matmul dot_S2000x256_S256x256_S2000x256_1_0_0_1_n_n none l r (constant S2000x256 .f32 0x00000000#32) (ix2 p q) = ∑ k : Fin 256, l (ix2 p k) * r (ix2 k q) :=
  Cert.LibDotPlain.matmul_zero_plain dot_S2000x256_S256x256_S2000x256_1_0_0_1_n_n rfl rfl pred_hidden_l0 pred_hidden_l1 pred_hidden_r0 pred_hidden_r1 none l r p q

/-- The output layer's product into a zero accumulator, entry (p, q). -/
theorem pred_outer_at (l : FVec Ideal S2000x256 .bf16) (r : FVec Ideal S256x128 .bf16) (p : Fin 2000) (q : Fin 128) :
    FloatOps.matmul dot_S2000x256_S256x128_S2000x128_1_0_0_1_n_n none l r (constant S2000x128 .f32 0x00000000#32) (ix2 p q) = ∑ k : Fin 256, l (ix2 p k) * r (ix2 k q) :=
  Cert.LibDotPlain.matmul_zero_plain dot_S2000x256_S256x128_S2000x128_1_0_0_1_n_n rfl rfl pred_outer_l0 pred_outer_l1 pred_outer_r0 pred_outer_r1 none l r p q

/-- The body's stored value at entry (p, q) of its block: row p of the two left blocks only. -/
theorem pred_stored_at (x0 x1 : Vec Ideal S2000x256 .f32) (x2 : Vec Ideal S256x256 .f32) (x3 : Vec Ideal S1x256 .f32)
    (x4 : Vec Ideal S256x128 .f32) (x5 : Vec Ideal S1x128 .f32) (p : Fin 2000) (q : Fin 128) :
    k2_pay1 x0 x1 x2 x3 x4 x5 (ix2 p q) = Ideal.logistic ((∑ k : Fin 256,
        max ((∑ j : Fin 256, (x0 (ix2 p j) * x1 (ix2 p j)) * x2 (ix2 j k)) + x3 (ix2 0 k)) 0 * x4 (ix2 k q)) + x5 (ix2 0 q)) := by
  unfold k2_pay1
  simp only [shapeCast_self]
  show Ideal.logistic (_ + _) = _
  refine congrArg Ideal.logistic (congrArg₂ (· + ·) ((pred_outer_at _ _ p q).trans ?_) (broadcastTo_1b_ab_apply x5 _ p q))
  refine Finset.sum_congr rfl fun k _ => ?_
  show max (_ + _) (Ideal.ofBits .f32 0x00000000#32) * x4 (ix2 k q) = _
  refine congrArg (· * x4 (ix2 k q)) ?_
  refine congrArg₂ max (congrArg₂ (· + ·) ((pred_hidden_at _ _ p k).trans ?_) (broadcastTo_1b_ab_apply x3 _ p k)) Ideal.ofBits_zero_f32
  exact Finset.sum_congr rfl fun j _ => rfl

/-! ## The input blocks, read off their arrays -/
/-- The zero offsets of a whole-block access, as the constant function. -/
theorem pred_zero_corner : (![0, 0] : Fin 2 → Nat) = fun _ => 0 := funext fun a => by fin_cases a <;> rfl

/-- The printed index maps over the 100 grid points: the two left inputs and the output sit at row block t,
    column block 0; the four small operands at block (0, 0). -/
theorem pred_block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Entry x of the first left input's block at point t is entry (2000 t + x₀, x₁) of its array. -/
theorem pred_left0_read (c : Dev nD) (X0 : S200000x256.Idx → EReal) (hX0 : V c main_v71 = X0) (t : Fin cfg2.N)
    (x : S2000x256.Idx) (k : S200000x256.Idx) (hk0 : (k 0).val = t.val * 2000 + (x 0).val) (hk1 : (k 1).val = (x 1).val) :
    (iblk2 (F := Ideal) V c 0 t : Vec Ideal S2000x256 .f32) x = X0 k := by
  obtain ⟨e0, e1, -⟩ := pred_block_index t
  unfold iblk2
  rw [View.read_apply]
  show V c main_v71 _ = X0 k
  rw [hX0]
  refine congrArg X0 ?_
  funext a; apply Fin.ext
  match a with
  | ⟨0, _⟩ => show win2_0.index t (0 : Fin 2) * 2000 + 1 * (x 0).val = (k 0).val; rw [e0, hk0]; omega
  | ⟨1, _⟩ => show win2_0.index t (1 : Fin 2) * 256 + 1 * (x 1).val = (k 1).val; rw [e1, hk1]; omega

/-- Entry x of the second left input's block at point t is entry (2000 t + x₀, x₁) of its array. -/
theorem pred_left1_read (c : Dev nD) (X1 : S200000x256.Idx → EReal) (hX1 : V c main_v80 = X1) (t : Fin cfg2.N)
    (x : S2000x256.Idx) (k : S200000x256.Idx) (hk0 : (k 0).val = t.val * 2000 + (x 0).val) (hk1 : (k 1).val = (x 1).val) :
    (iblk2 (F := Ideal) V c 1 t : Vec Ideal S2000x256 .f32) x = X1 k := by
  obtain ⟨-, -, e0, e1, -⟩ := pred_block_index t
  unfold iblk2
  rw [View.read_apply]
  show V c main_v80 _ = X1 k
  rw [hX1]
  refine congrArg X1 ?_
  funext a; apply Fin.ext
  match a with
  | ⟨0, _⟩ => show win2_1.index t (0 : Fin 2) * 2000 + 1 * (x 0).val = (k 0).val; rw [e0, hk0]; omega
  | ⟨1, _⟩ => show win2_1.index t (1 : Fin 2) * 256 + 1 * (x 1).val = (k 1).val; rw [e1, hk1]; omega

/-- The hidden layer's weights are staged whole: their block at every point is the array. -/
theorem pred_hidden_weights_read (c : Dev nD) (A : S256x256.Idx → EReal) (hA : V c main_arg7 = A) (t : Fin cfg2.N) :
    (iblk2 (F := Ideal) V c 2 t : Vec Ideal S256x256 .f32) = A := by
  obtain ⟨-, -, -, -, e0, e1, -⟩ := pred_block_index t
  funext x
  unfold iblk2
  rw [View.read_apply]
  show V c main_arg7 _ = A x
  rw [hA]
  refine congrArg A ?_
  funext a; apply Fin.ext
  match a with
  | ⟨0, _⟩ => show win2_2.index t (0 : Fin 2) * 256 + 1 * (x 0).val = (x 0).val; rw [e0]; omega
  | ⟨1, _⟩ => show win2_2.index t (1 : Fin 2) * 256 + 1 * (x 1).val = (x 1).val; rw [e1]; omega

/-- The hidden layer's bias row is staged whole. -/
theorem pred_hidden_bias_read (c : Dev nD) (A : S1x256.Idx → EReal) (hA : V c main_v87 = A) (t : Fin cfg2.N) :
    (iblk2 (F := Ideal) V c 3 t : Vec Ideal S1x256 .f32) = A := by
  obtain ⟨-, -, -, -, -, -, e0, e1, -⟩ := pred_block_index t
  funext x
  unfold iblk2
  rw [View.read_apply]
  show V c main_v87 _ = A x
  rw [hA]
  refine congrArg A ?_
  funext a; apply Fin.ext
  match a with
  | ⟨0, _⟩ => show win2_3.index t (0 : Fin 2) * 1 + 1 * (x 0).val = (x 0).val; rw [e0]; omega
  | ⟨1, _⟩ => show win2_3.index t (1 : Fin 2) * 256 + 1 * (x 1).val = (x 1).val; rw [e1]; omega

/-- The output layer's weights are staged whole. -/
theorem pred_outer_weights_read (c : Dev nD) (A : S256x128.Idx → EReal) (hA : V c main_v83 = A) (t : Fin cfg2.N) :
    (iblk2 (F := Ideal) V c 4 t : Vec Ideal S256x128 .f32) = A := by
  obtain ⟨-, -, -, -, -, -, -, -, e0, e1, -⟩ := pred_block_index t
  funext x
  unfold iblk2
  rw [View.read_apply]
  show V c main_v83 _ = A x
  rw [hA]
  refine congrArg A ?_
  funext a; apply Fin.ext
  match a with
  | ⟨0, _⟩ => show win2_4.index t (0 : Fin 2) * 256 + 1 * (x 0).val = (x 0).val; rw [e0]; omega
  | ⟨1, _⟩ => show win2_4.index t (1 : Fin 2) * 128 + 1 * (x 1).val = (x 1).val; rw [e1]; omega

/-- The output layer's bias row is staged whole. -/
theorem pred_outer_bias_read (c : Dev nD) (A : S1x128.Idx → EReal) (hA : V c main_v88 = A) (t : Fin cfg2.N) :
    (iblk2 (F := Ideal) V c 5 t : Vec Ideal S1x128 .f32) = A := by
  obtain ⟨-, -, -, -, -, -, -, -, -, -, e0, e1, -⟩ := pred_block_index t
  funext x
  unfold iblk2
  rw [View.read_apply]
  show V c main_v88 _ = A x
  rw [hA]
  refine congrArg A ?_
  funext a; apply Fin.ext
  match a with
  | ⟨0, _⟩ => show win2_5.index t (0 : Fin 2) * 1 + 1 * (x 0).val = (x 0).val; rw [e0]; omega
  | ⟨1, _⟩ => show win2_5.index t (1 : Fin 2) * 128 + 1 * (x 1).val = (x 1).val; rw [e1]; omega

/-! ## The output array as one function of the six inputs -/

/-- The predictor at row r, column q: a hidden layer of 256 units on the elementwise product of the two left
    rows, clipped below at 0, then an output layer of 128 columns, then the logistic function. -/
def pred (X0 X1 : S200000x256.Idx → EReal) (P1 : S256x256.Idx → EReal) (b1 : S1x256.Idx → EReal)
    (P2 : S256x128.Idx → EReal) (b2 : S1x128.Idx → EReal) (r : Fin 200000) (q : Fin 128) : EReal :=
  Ideal.logistic ((∑ k : Fin 256,
    max ((∑ j : Fin 256, (X0 (ix2 r j) * X1 (ix2 r j)) * P1 (ix2 j k)) + b1 (ix2 0 k)) 0 * P2 (ix2 k q)) + b2 (ix2 0 q))

/-- The whole output array as one function of the six input arrays. -/
def predArr (X0 X1 : S200000x256.Idx → EReal) (P1 : S256x256.Idx → EReal) (b1 : S1x256.Idx → EReal)
    (P2 : S256x128.Idx → EReal) (b2 : S1x128.Idx → EReal) : S200000x128.Idx → EReal :=
  fun i => pred X0 X1 P1 b1 P2 b2 (i 0) (i 1)

/-- The body's stored value at entry y of its block is the predictor at array entry (r, q), as soon as row y₀ of
    the two left blocks is row r of the two left arrays and y₁ = q. -/
theorem pred_stored_eq (x0 x1 : Vec Ideal S2000x256 .f32) (X0 X1 : S200000x256.Idx → EReal) (P1 : S256x256.Idx → EReal)
    (b1 : S1x256.Idx → EReal) (P2 : S256x128.Idx → EReal) (b2 : S1x128.Idx → EReal)
    (y : S2000x128.Idx) (r : Fin 200000) (q : Fin 128) (hq : (y 1).val = q.val)
    (h0 : ∀ j : Fin 256, x0 (ix2 (y 0) j) = X0 (ix2 r j)) (h1 : ∀ j : Fin 256, x1 (ix2 (y 0) j) = X1 (ix2 r j)) :
    k2_pay1 x0 x1 P1 b1 P2 b2 y = pred X0 X1 P1 b1 P2 b2 r q := by
  obtain ⟨p, q', rfl⟩ : ∃ (p : Fin 2000) (q' : Fin 128), y = ix2 p q' := ⟨y 0, y 1, eq_ix2 y⟩
  obtain rfl : q' = q := Fin.ext hq
  have h0' : ∀ j : Fin 256, x0 (ix2 p j) = X0 (ix2 r j) := h0
  have h1' : ∀ j : Fin 256, x1 (ix2 p j) = X1 (ix2 r j) := h1
  refine (pred_stored_at x0 x1 P1 b1 P2 b2 p q').trans ?_
  unfold pred
  simp only [h0', h1']

/-! ## What a point writes back, and the tiling of the rows -/

/-- What point t writes back is block t of the predictor's array. -/
theorem pred_written_back (c : Dev nD) (X0 X1 : S200000x256.Idx → EReal) (P1 : S256x256.Idx → EReal) (b1 : S1x256.Idx → EReal)
    (P2 : S256x128.Idx → EReal) (b2 : S1x128.Idx → EReal)
    (hX0 : V c main_v71 = X0) (hX1 : V c main_v80 = X1) (hP1 : V c main_arg7 = P1) (hb1 : V c main_v87 = b1)
    (hP2 : V c main_v83 = P2) (hb2 : V c main_v88 = b2) (t : Fin cfg2.N) :
    (dat2 (F := Ideal) V c).flushed 6 t = ((cfg2.win 6).blk t).view.read (Elt Ideal) (predArr X0 X1 P1 b1 P2 b2) := by
  show (cfg2.win 6).cut (grid2.coords t) ((dat2 (F := Ideal) V c).after 6 t) = _
  rw [after2_6]
  unfold out2_6
  rw [View.canon_unit_zero pred_zero_corner]
  simp only [View.ld_unit_zero (S := S2000x256) pred_zero_corner, View.ld_unit_zero (S := S256x256) pred_zero_corner, View.ld_unit_zero (S := S1x256) pred_zero_corner,
    View.ld_unit_zero (S := S256x128) pred_zero_corner, View.ld_unit_zero (S := S1x128) pred_zero_corner]
  rw [pred_hidden_weights_read V c P1 hP1 t, pred_hidden_bias_read V c b1 hb1 t, pred_outer_weights_read V c P2 hP2 t, pred_outer_bias_read V c b2 hb2 t]
  obtain ⟨-, -, -, -, -, -, -, -, -, -, -, -, e0, e1⟩ := pred_block_index t
  funext j
  show k2_pay1 (iblk2 (F := Ideal) V c 0 t) (iblk2 (F := Ideal) V c 1 t) P1 b1 P2 b2 ((cfg2.win 6).xinj (grid2.coords t) j)
    = pred X0 X1 P1 b1 P2 b2 ((((cfg2.win 6).blk t).view.emb j) 0) ((((cfg2.win 6).blk t).view.emb j) 1)
  refine pred_stored_eq (iblk2 (F := Ideal) V c 0 t) (iblk2 (F := Ideal) V c 1 t) X0 X1 P1 b1 P2 b2 ((cfg2.win 6).xinj (grid2.coords t) j)
    ((((cfg2.win 6).blk t).view.emb j) 0) ((((cfg2.win 6).blk t).view.emb j) 1) ?_ (fun k => ?_) (fun k => ?_)
  · show (j 1).val = win2_6.index t (1 : Fin 2) * 128 + 1 * (j 1).val
    rw [e1]; omega
  · refine pred_left0_read V c X0 hX0 t _ _ ?_ rfl
    show win2_6.index t (0 : Fin 2) * 2000 + 1 * (j 0).val = t.val * 2000 + (j 0).val
    rw [e0]; omega
  · refine pred_left1_read V c X1 hX1 t _ _ ?_ rfl
    show win2_6.index t (0 : Fin 2) * 2000 + 1 * (j 0).val = t.val * 2000 + (j 0).val
    rw [e0]; omega

/-- An index of the output array is in point t's block iff each coordinate is in the block's range on its axis. -/
theorem pred_mem_block (t : Fin cfg2.N) (i : S200000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v89).slice (win2_6.rect t)).set ↔ _
  rw [View.set_slice_whole, Rect.mem_set_unit]
  exact Iff.rfl

/-- The row blocks tile the output array: row r is in the block of point r / 2000. -/
theorem pred_blocks_cover (i : S200000x128.Idx) :
    ∃ t : Fin cfg2.N, (cfg2.win 6).flush t = true ∧ i ∈ ((cfg2.win 6).blk t).view.set := by
  have hi0 : (i 0).val < 200000 := (i 0).isLt
  have hi1 : (i 1).val < 128 := (i 1).isLt
  have hN : grid2.N = 100 := N_2
  have ht : (i 0).val / 2000 < grid2.N := by rw [hN]; omega
  obtain ⟨-, -, -, -, -, -, -, -, -, -, -, -, e0, e1⟩ := pred_block_index ⟨(i 0).val / 2000, ht⟩
  refine ⟨⟨(i 0).val / 2000, ht⟩, flush2_6 _, ?_⟩
  rw [pred_mem_block]
  intro a
  match a with
  | ⟨0, _⟩ =>
    show win2_6.index ⟨(i 0).val / 2000, ht⟩ (0 : Fin 2) * 2000 ≤ (i 0).val
      ∧ (i 0).val < win2_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_6.index ⟨(i 0).val / 2000, ht⟩ (1 : Fin 2) * 128 ≤ (i 1).val
      ∧ (i 1).val < win2_6.index ⟨(i 0).val / 2000, ht⟩ (1 : Fin 2) * 128 + 128
    rw [e1]; omega

/-! ## The array after the last point -/

/-- Region 2 (the predictor, its last layer 128 columns wide). -/
theorem arr2_at (c : Dev nD) (X0 X1 : S200000x256.Idx → EReal) (P1 : S256x256.Idx → EReal) (b1 : S1x256.Idx → EReal)
    (P2 : S256x128.Idx → EReal) (b2 : S1x128.Idx → EReal) (O : S200000x128.Idx → EReal)
    (hX0 : V c main_v71 = X0) (hX1 : V c main_v80 = X1) (hP1 : V c main_arg7 = P1) (hb1 : V c main_v87 = b1)
    (hP2 : V c main_v83 = P2) (hb2 : V c main_v88 = b2) (hO : (dat2 (F := Ideal) V c).arrAt 6 cfg2.N = O)
    (r : Fin 200000) (q : Fin 128) :
    O (ix2 r q) = Ideal.logistic ((∑ k : Fin 256,
        max ((∑ j : Fin 256, (X0 (ix2 r j) * X1 (ix2 r j)) * P1 (ix2 j k)) + b1 (ix2 0 k)) 0 * P2 (ix2 k q)) + b2 (ix2 0 q)) := by
  have hfin : (dat2 (F := Ideal) V c).arrAt 6 cfg2.N = predArr X0 X1 P1 b1 P2 b2 :=
    (dat2 (F := Ideal) V c).arrAt_eq_of_cover 6 (predArr X0 X1 P1 b1 P2 b2)
      (fun t _ => pred_written_back V c X0 X1 P1 b1 P2 b2 hX0 hX1 hP1 hb1 hP2 hb2 t) pred_blocks_cover
  rw [← hO, hfin]
  rfl

end Cert.KernelIdeal.Regions

end
-- ==== Proof.LibHostJoin.lean ====
/-
  Reading a line of host operations in one rewriting pass, through two-operand joins.

  The host's `concatenate` takes its operands as a list of (shape, array) pairs. `join2` is the join of TWO arrays
  along an axis with the two arrays as arguments of their own: the same function, restated so that what is known about
  either operand can be rewritten inside it. `host_read` reads what a buffer holds after a literal line of host
  operations (`StableHlo.after ops V` at a buffer): every operation's result at its own buffer becomes its function of
  its operands' contents, at any other buffer what was there before, every two-operand join is restated as `join2`
  on the way, the identity transports between a buffer's own type and its value's type cancel, and what is left is the operations' composed term over `V` at the buffers the line only reads.
-/
import Idealize.ShloMosaic.Lib.StableHlo.Run

noncomputable section

namespace Cert.LibHostJoin

open Idealize.ShloMosaic Idealize.ShloMosaic.StableHlo

/-- The join of two arrays along axis `a`: entry `i` comes from the first array where `i`'s coordinate on `a` is
    below the first array's extent there, from the second otherwise. -/
def join2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- The host's join of a two-element list is `join2` of the two arrays. -/
theorem concatenate_pair {α : Type} (t : Shape) (a : Fin t.rank) (s₁ s₂ : Shape) (x : s₁.Idx → α) (y : s₂.Idx → α)
    (h : Shape.Concatenates [s₁, s₂] t a) : concatenate t a [⟨s₁, x⟩, ⟨s₂, y⟩] h = join2 t a s₁ s₂ x y h := rfl

/-- Reads `StableHlo.after ops V` at a buffer for a literal line `ops`, in one pass. -/
macro "host_read" : tactic =>
  `(tactic| (simp (disch := decide) only [after_cons, after_nil, concatenate_pair, cast_cast, cast_eq,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Cert.LibHostJoin

end
-- ==== Proof.Host0.lean ====
/-
  The contents of the kernel program's buffers when its first region is entered, against the reference's stages.

  Before the first region both programs apply the same forty operations to the edge list: the row and column lists with
  the self-loops appended, the degree of each node as a scatter-add of ones, its inverse square root where positive, and
  the normalisation weight of each edge as the product of the two gathered inverse roots. Read off the kernel program's
  fold of operations, boundary by boundary, the three buffers later stretches use (the rows, the columns, the weights)
  are the reference's stages of the same names applied to the same edge list; every argument buffer is as launched.
-/
import proofs.«107415_j44504451121629_1_alg».proof.Proof.Gen.KernelIdeal.Frame
import proofs.«107415_j44504451121629_1_alg».proof.Proof.RefReadP
import Idealize.ShloMosaic.Lib.StableHlo.Run
import proofs.«107415_j44504451121629_1_alg».proof.Proof.LibHostJoin
import Idealize.ShloMosaic.PureOps.Ideal.Laws

set_option maxRecDepth 16384

noncomputable section

open scoped BigOperators

namespace Cert.KernelIdeal.HostSide

open Cert.KernelIdeal Cert.KernelIdeal.Gen Idealize.ShloMosaic Idealize.ShloMosaic.TcCoe Idealize.ShloMosaic.ValueIdx Idealize.SL.Sem Idealize.ShloMosaic.StableHlo Cert.LibHostJoin

variable (m : (ℓ : Loc nD τ sig) → Buf (Elt Ideal) ℓ) (ρ : Dev nD → PrngReg)

/-- A buffer that no operation of a stretch writes holds after the stretch what it held before. -/
macro "host_keeps" : tactic => `(tactic|
  exact StableHlo.after_of_forall_not_mem _ _ (List.forall_iff_forall_mem.mp (by
    simp only [hostOps0, hostOps0_1, hostOps0_2, hostOps1, hostOps2, hostOps3, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide))))

/-! ## The arguments at the first region's entry -/

theorem at3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by host_keeps
    _ = W1 m ρ c (Proc.devRef .tc main_arg1) := by host_keeps
    _ = W0 m ρ c (Proc.devRef .tc main_arg1) := by host_keeps
    _ = m ((c : Thread nD τ).loc main_arg1) := rfl
theorem at3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by host_keeps
    _ = W1 m ρ c (Proc.devRef .tc main_arg2) := by host_keeps
    _ = W0 m ρ c (Proc.devRef .tc main_arg2) := by host_keeps
    _ = m ((c : Thread nD τ).loc main_arg2) := rfl
theorem at3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by host_keeps
    _ = W1 m ρ c (Proc.devRef .tc main_arg3) := by host_keeps
    _ = W0 m ρ c (Proc.devRef .tc main_arg3) := by host_keeps
    _ = m ((c : Thread nD τ).loc main_arg3) := rfl
theorem at3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by host_keeps
    _ = W1 m ρ c (Proc.devRef .tc main_arg4) := by host_keeps
    _ = W0 m ρ c (Proc.devRef .tc main_arg4) := by host_keeps
    _ = m ((c : Thread nD τ).loc main_arg4) := rfl
theorem at3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by host_keeps
    _ = W1 m ρ c (Proc.devRef .tc main_arg5) := by host_keeps
    _ = W0 m ρ c (Proc.devRef .tc main_arg5) := by host_keeps
    _ = m ((c : Thread nD τ).loc main_arg5) := rfl
theorem at3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by host_keeps
    _ = W1 m ρ c (Proc.devRef .tc main_arg6) := by host_keeps
    _ = W0 m ρ c (Proc.devRef .tc main_arg6) := by host_keeps
    _ = m ((c : Thread nD τ).loc main_arg6) := rfl
theorem at3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by host_keeps
    _ = W1 m ρ c (Proc.devRef .tc main_arg7) := by host_keeps
    _ = W0 m ρ c (Proc.devRef .tc main_arg7) := by host_keeps
    _ = m ((c : Thread nD τ).loc main_arg7) := rfl
theorem at3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := by host_keeps
    _ = W1 m ρ c (Proc.devRef .tc main_arg8) := by host_keeps
    _ = W0 m ρ c (Proc.devRef .tc main_arg8) := by host_keeps
    _ = m ((c : Thread nD τ).loc main_arg8) := rfl
theorem at3_arg9 (c : Dev nD) : W3 m ρ c (Proc.devRef .tc main_arg9) = m ((c : Thread nD τ).loc main_arg9) :=
  calc W3 m ρ c (Proc.devRef .tc main_arg9)
    _ = W2 m ρ c (Proc.devRef .tc main_arg9) := by host_keeps
    _ = W1 m ρ c (Proc.devRef .tc main_arg9) := by host_keeps
    _ = W0 m ρ c (Proc.devRef .tc main_arg9) := by host_keeps
    _ = m ((c : Thread nD τ).loc main_arg9) := rfl
theorem at3_arg10 (c : Dev nD) : W3 m ρ c (Proc.devRef .tc main_arg10) = m ((c : Thread nD τ).loc main_arg10) :=
  calc W3 m ρ c (Proc.devRef .tc main_arg10)
    _ = W2 m ρ c (Proc.devRef .tc main_arg10) := by host_keeps
    _ = W1 m ρ c (Proc.devRef .tc main_arg10) := by host_keeps
    _ = W0 m ρ c (Proc.devRef .tc main_arg10) := by host_keeps
    _ = m ((c : Thread nD τ).loc main_arg10) := rfl

/-! ## After the first twenty operations: rows, columns, and the degrees' mask and inverse roots -/

set_option maxHeartbeats 8000000 in
/-- The row list (the edges' first ends, then every node once). -/
theorem at1_v3 (c : Dev nD) :
    W1 m ρ c (Proc.devRef .tc main_v3) = Cert.ReferenceIdeal.ReadP.val_main_v3 (F := Ideal) (m ((c : Thread nD τ).loc main_arg0)) := by
  show StableHlo.after hostOps0 (W0 m ρ c) (Proc.devRef .tc main_v3) = _
  host_read
  rfl

set_option maxHeartbeats 8000000 in
/-- The column list (the edges' second ends, then every node once). -/
theorem at1_v6 (c : Dev nD) :
    W1 m ρ c (Proc.devRef .tc main_v6) = Cert.ReferenceIdeal.ReadP.val_main_v6 (F := Ideal) (m ((c : Thread nD τ).loc main_arg0)) := by
  show StableHlo.after hostOps0 (W0 m ρ c) (Proc.devRef .tc main_v6) = _
  host_read
  rfl

set_option maxHeartbeats 8000000 in
/-- Where the degree is positive. -/
theorem at1_v12 (c : Dev nD) :
    W1 m ρ c (Proc.devRef .tc main_v12) = Cert.ReferenceIdeal.ReadP.val_main_v12 (F := Ideal) (m ((c : Thread nD τ).loc main_arg0)) := by
  show StableHlo.after hostOps0 (W0 m ρ c) (Proc.devRef .tc main_v12) = _
  host_read
  rfl

set_option maxHeartbeats 8000000 in
/-- The degree to the power -1/2. -/
theorem at1_v14 (c : Dev nD) :
    W1 m ρ c (Proc.devRef .tc main_v14) = Cert.ReferenceIdeal.ReadP.val_main_v14 (F := Ideal) (m ((c : Thread nD τ).loc main_arg0)) := by
  show StableHlo.after hostOps0 (W0 m ρ c) (Proc.devRef .tc main_v14) = _
  host_read
  rfl

set_option maxHeartbeats 8000000 in
/-- The zero the selection falls back to. -/
theorem at1_cst_3 (c : Dev nD) :
    W1 m ρ c (Proc.devRef .tc main_cst_3) = Cert.ReferenceIdeal.ReadP.val_main_cst_3 (F := Ideal) := by
  show StableHlo.after hostOps0 (W0 m ρ c) (Proc.devRef .tc main_cst_3) = _
  host_read
  rfl

/-! ## After the outlined selection: the inverse roots, zero where the degree is not positive -/

theorem at2_v3 (c : Dev nD) : W2 m ρ c (Proc.devRef .tc main_v3) = Cert.ReferenceIdeal.ReadP.val_main_v3 (F := Ideal) (m ((c : Thread nD τ).loc main_arg0)) :=
  (show StableHlo.after hostOps0_1 (W1 m ρ c) (Proc.devRef .tc main_v3) = W1 m ρ c (Proc.devRef .tc main_v3) by host_keeps).trans (at1_v3 m ρ c)
theorem at2_v6 (c : Dev nD) : W2 m ρ c (Proc.devRef .tc main_v6) = Cert.ReferenceIdeal.ReadP.val_main_v6 (F := Ideal) (m ((c : Thread nD τ).loc main_arg0)) :=
  (show StableHlo.after hostOps0_1 (W1 m ρ c) (Proc.devRef .tc main_v6) = W1 m ρ c (Proc.devRef .tc main_v6) by host_keeps).trans (at1_v6 m ρ c)

set_option maxHeartbeats 8000000 in
theorem at2_v15 (c : Dev nD) :
    W2 m ρ c (Proc.devRef .tc main_v15) = Cert.ReferenceIdeal.ReadP.val_main_v15 (F := Ideal) (m ((c : Thread nD τ).loc main_arg0)) := by
  have e12 := at1_v12 m ρ c
  have e14 := at1_v14 m ρ c
  have ec := at1_cst_3 m ρ c
  show StableHlo.after hostOps0_1 (W1 m ρ c) (Proc.devRef .tc main_v15) = _
  generalize W1 m ρ c = Wp at e12 e14 ec ⊢
  host_read
  rw [e12, e14, ec]
  rfl

/-! ## At the first region's entry: the rows, the columns and the edge weights -/

theorem at3_v3 (c : Dev nD) : W3 m ρ c (Proc.devRef .tc main_v3) = Cert.ReferenceIdeal.ReadP.val_main_v3 (F := Ideal) (m ((c : Thread nD τ).loc main_arg0)) :=
  (show StableHlo.after hostOps0_2 (W2 m ρ c) (Proc.devRef .tc main_v3) = W2 m ρ c (Proc.devRef .tc main_v3) by host_keeps).trans (at2_v3 m ρ c)
theorem at3_v6 (c : Dev nD) : W3 m ρ c (Proc.devRef .tc main_v6) = Cert.ReferenceIdeal.ReadP.val_main_v6 (F := Ideal) (m ((c : Thread nD τ).loc main_arg0)) :=
  (show StableHlo.after hostOps0_2 (W2 m ρ c) (Proc.devRef .tc main_v6) = W2 m ρ c (Proc.devRef .tc main_v6) by host_keeps).trans (at2_v6 m ρ c)

set_option maxHeartbeats 8000000 in
/-- The edge weights: the product of the inverse square roots of the two ends' degrees. -/
theorem at3_v30 (c : Dev nD) :
    W3 m ρ c (Proc.devRef .tc main_v30) = Cert.ReferenceIdeal.ReadP.val_main_v30 (F := Ideal) (m ((c : Thread nD τ).loc main_arg0)) := by
  have e15 := at2_v15 m ρ c
  have e3 := at2_v3 m ρ c
  have e6 := at2_v6 m ρ c
  show StableHlo.after hostOps0_2 (W2 m ρ c) (Proc.devRef .tc main_v30) = _
  generalize W2 m ρ c = Wp at e15 e3 e6 ⊢
  host_read
  rw [e15, e3, e6]
  rfl

end Cert.KernelIdeal.HostSide

end
-- ==== Proof.LibSameOps.lean ====
/-
  Kernel-side vector operations and the host's operations that compute the same array.

  A Pallas kernel body and a jnp reference spell one mathematical step in two vocabularies: a lane
  reduction (`vector.multi_reduction`) against `stablehlo.reduce`; a `vector.shape_cast` that adds a
  unit axis, or a `vector.broadcast`, against `stablehlo.broadcast_in_dim`; a scalar splat against the
  broadcast of a rank-0 constant. Read at the extended reals each pair is ONE function of the operand
  array. The lemmas below state that, as equalities of whole arrays, generic in the extents, so that a
  proof about two programs that take the same steps in the same order can rewrite one vocabulary into the
  other and compare terms.
-/
import Idealize.ShloMosaic.PureOps.Ideal.Laws
import Idealize.ShloMosaic.Lib.Pipeline.Value
import Idealize.ShloMosaic.Lib.ValueIdx

noncomputable section

namespace Cert.SameOps

open Idealize.ShloMosaic

variable {α : Type}

/-! ## Reductions over one axis

  A printed reduction carries a proof that its accumulator word is the operation's neutral word; printed, that
  proof is of the word's equality with itself, and the lemmas below take it in that form. -/

/-- The sum over one axis from the zero word: the kernel's lane sum is the host's `reduce` with an `add`
    body from the rank-0 zero. Both are, at each kept index, the exact sum over the dropped coordinate. -/
theorem laneSum_eq_hostSum {s t u : Shape} {a : Fin s.rank} (src : FVec Ideal s .f32)
    (h : s.Reduces [a] t) (hφ : FKind.Formats .f32) (hacc : (0x00000000#32 : BitVec 32) = 0x00000000#32)
    (h' : s.ReducesTo [a] t) (hu : 0 < u.numel) :
    multiReduction .add [a] t src 0x00000000#32 h hφ hacc
      = Host.reduceAdd src (constant u .f32 0x00000000#32) h' hu := by
  funext j
  refine (Ideal.multiReduction_add_single src _ h hφ hacc j).trans ?_
  simp only [Host.reduceAdd, Ideal.hostReduceAdd_def]
  rw [Ideal.hostReduceAdd_single h' h]
  show _ = Ideal.ofBits .f32 0x00000000#32 + _
  rw [Ideal.ofBits_zero_f32, zero_add]

/-- The minimum over one axis from +∞: the kernel's lane minimum is the host's `reduce` with a `minimum`
    body from the rank-0 constant +∞: the fold of `min` from the seed over the dropped coordinate, in any
    order. -/
theorem laneMin_eq_hostMin {s t u : Shape} {a : Fin s.rank} (src : FVec Ideal s .f32)
    (h : s.Reduces [a] t) (hφ : FKind.Formats .f32) (hacc : (0x7F800000#32 : BitVec 32) = 0x7F800000#32)
    (h' : s.ReducesTo [a] t) (hu : 0 < u.numel) :
    multiReduction .minimumf [a] t src 0x7F800000#32 h hφ hacc
      = Host.reduce FloatOps.minimumf src (constant u .f32 0x7F800000#32) h' hu := by
  funext j
  refine (multiReduction_minimumf_eq_fold src _ h hφ hacc j).trans ?_
  rw [h.fold_filter_drop_single, Host.reduce_eq_fold_single FloatOps.minimumf src _ h' h hu]
  rfl

/-- The maximum over one axis from −∞, likewise. -/
theorem laneMax_eq_hostMax {s t u : Shape} {a : Fin s.rank} (src : FVec Ideal s .f32)
    (h : s.Reduces [a] t) (hφ : FKind.Formats .f32) (hacc : (0xFF800000#32 : BitVec 32) = 0xFF800000#32)
    (h' : s.ReducesTo [a] t) (hu : 0 < u.numel) :
    multiReduction .maximumf [a] t src 0xFF800000#32 h hφ hacc
      = Host.reduce FloatOps.maximumf src (constant u .f32 0xFF800000#32) h' hu := by
  funext j
  refine (multiReduction_maximumf_eq_fold src _ h hφ hacc j).trans ?_
  rw [h.fold_filter_drop_single, Host.reduce_eq_fold_single FloatOps.maximumf src _ h' h hu]
  rfl

/-! ## Unit axes and broadcasts -/

/-- A vector of `a` entries as a column: the shape cast [a] → [a, 1] is the broadcast along new axis 1
    (`dims = [0]`): entry (p, 0) is entry p. -/
theorem castCol_eq_bcast {a : Nat} (v : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ v h = broadcastInDim ⟨2, ![a, 1]⟩ ![0] hb v := by
  funext j
  have h1 : (j 1).val < 1 := (j 1).isLt
  have h0 : (j 0).val < a := (j 0).isLt
  rw [shapeCast_apply v h j (ValueIdx.ix1 (⟨(j 0).val, h0⟩ : Fin a)) (by
      rw [Shape.rowMajor_val_one, Shape.rowMajor_val_two]
      show (j 0).val = (j 0).val * 1 + (j 1).val
      omega),
    broadcastInDim_apply ![0] hb v j (ValueIdx.ix1 (⟨(j 0).val, h0⟩ : Fin a)) (fun b => by
      match b with
      | ⟨0, _⟩ =>
        show (j 0).val = if a = 1 then 0 else (j 0).val
        split_ifs with e
        · omega
        · rfl)]

/-- A vector of `b` entries as a row: the shape cast [b] → [1, b] is the broadcast along new axis 0
    (`dims = [1]`): entry (0, q) is entry q. -/
theorem castRow_eq_bcast {b : Nat} (v : (⟨1, ![b]⟩ : Shape).Idx → α)
    (h : (⟨1, ![b]⟩ : Shape).ShapeCasts ⟨2, ![1, b]⟩)
    (hb : (⟨1, ![b]⟩ : Shape).BroadcastsInDim ⟨2, ![1, b]⟩ ![1]) :
    shapeCast ⟨2, ![1, b]⟩ v h = broadcastInDim ⟨2, ![1, b]⟩ ![1] hb v := by
  funext j
  have h0 : (j 0).val < 1 := (j 0).isLt
  have h1 : (j 1).val < b := (j 1).isLt
  rw [shapeCast_apply v h j (ValueIdx.ix1 (⟨(j 1).val, h1⟩ : Fin b)) (by
      rw [Shape.rowMajor_val_one, Shape.rowMajor_val_two]
      show (j 1).val = (j 0).val * b + (j 1).val
      have : (j 0).val = 0 := by omega
      rw [this, Nat.zero_mul, Nat.zero_add]),
    broadcastInDim_apply ![1] hb v j (ValueIdx.ix1 (⟨(j 1).val, h1⟩ : Fin b)) (fun c => by
      match c with
      | ⟨0, _⟩ =>
        show (j 1).val = if b = 1 then 0 else (j 1).val
        split_ifs with e
        · omega
        · rfl)]

/-- Between two rank-2 shapes a `vector.broadcast` is the `broadcast_in_dim` with `dims = [0, 1]`: each
    unit axis of the operand is read at 0, each other axis at the result's coordinate. -/
theorem broadcastTo_eq_inDim2 {d e : Fin 2 → Nat} (v : (⟨2, d⟩ : Shape).Idx → α)
    (h : (⟨2, d⟩ : Shape).Broadcasts ⟨2, e⟩) (hb : (⟨2, d⟩ : Shape).BroadcastsInDim ⟨2, e⟩ ![0, 1]) :
    broadcastTo ⟨2, e⟩ v h = broadcastInDim ⟨2, e⟩ ![0, 1] hb v := by
  funext j
  unfold broadcastTo broadcastInDim
  refine congrArg v (funext fun a => ?_)
  by_cases h1 : (⟨2, d⟩ : Shape).size a = 1
  · rw [dif_pos h1, dif_pos h1]
  · rw [dif_neg h1, dif_neg h1]
    apply Fin.ext
    match a with
    | ⟨0, _⟩ => rfl
    | ⟨1, _⟩ => rfl

/-- A scalar splat is the broadcast of the rank-0 constant of the same word. -/
theorem splat_eq_bcast {t : Shape} (w : BitVec 32) (hb : (⟨0, ![]⟩ : Shape).BroadcastsInDim t ![]) :
    broadcast t (Scalar.ofBits (F := Ideal) .f32 w) = broadcastInDim t ![] hb (constant (F := Ideal) ⟨0, ![]⟩ .f32 w) := by
  funext j
  rfl

/-- A shape cast to the same shape changes nothing. -/
theorem shapeCast_same {s : Shape} (v : s.Idx → α) (h : s.ShapeCasts s) : shapeCast s v h = v :=
  shapeCast_self v h

/-! ## Elementwise operations: one spelling in a kernel body, another on the host -/

variable {s : Shape}

theorem sqrt_eq_host (v : FVec Ideal s .f32) : sqrt v = Host.sqrt v := rfl
theorem exp_eq_host (v : FVec Ideal s .f32) : exp v = Host.exp v := rfl
theorem tanh_eq_host (v : FVec Ideal s .f32) : tanh v = Host.tanh v := rfl
theorem divf_eq_host (v w : FVec Ideal s .f32) : divf v w = Host.divf v w := rfl

/-! ## Products with one contracted axis -/

/-- A `tpu.matmul` into the zero accumulator, read at an entry: the sum over the one contracted
    coordinate of the products of the operands at the indices the caller names (`li`, `ri`). -/
theorem matmul_zero_sum {sl sr so : Shape} (d : DotDims sl sr so) (n : Nat) (hr : d.contr.rank = 1)
    (hs : d.contr.size ⟨0, by omega⟩ = n) (l : FVec Ideal sl .f32) (r : FVec Ideal sr .f32) (j : so.Idx)
    (li : Fin n → sl.Idx) (ri : Fin n → sr.Idx)
    (hl : ∀ k, d.lhsIdx j ((ValueIdx.contrEquiv1 d n hr hs).symm k) = li k)
    (hri : ∀ k, d.rhsIdx j ((ValueIdx.contrEquiv1 d n hr hs).symm k) = ri k) :
    matmul d none l r (constant so .f32 0x00000000#32) j = ∑ k : Fin n, l (li k) * r (ri k) := by
  simp only [matmul]
  rw [Ideal.matmul_constant_zero_apply, ← Equiv.sum_comp (ValueIdx.contrEquiv1 d n hr hs).symm]
  exact Finset.sum_congr rfl fun k _ => by rw [hl k, hri k]

/-- The host's `dot_general`, read at an entry, likewise. -/
theorem hostDot_sum {sl sr so : Shape} (d : DotDims sl sr so) (n : Nat) (hr : d.contr.rank = 1)
    (hs : d.contr.size ⟨0, by omega⟩ = n) (l : FVec Ideal sl .f32) (r : FVec Ideal sr .f32) (j : so.Idx)
    (li : Fin n → sl.Idx) (ri : Fin n → sr.Idx)
    (hl : ∀ k, d.lhsIdx j ((ValueIdx.contrEquiv1 d n hr hs).symm k) = li k)
    (hri : ∀ k, d.rhsIdx j ((ValueIdx.contrEquiv1 d n hr hs).symm k) = ri k) :
    Host.dotGeneral d none l r j = ∑ k : Fin n, l (li k) * r (ri k) := by
  simp only [Host.dotGeneral]
  rw [Ideal.dotGeneral_apply, ← Equiv.sum_comp (ValueIdx.contrEquiv1 d n hr hs).symm]
  exact Finset.sum_congr rfl fun k _ => by rw [hl k, hri k]

end Cert.SameOps

end
-- ==== Proof.Host1.lean ====
/-
  The first layer's product, the aggregation that follows it, and the bias row.

  The first region leaves in its output array the product of the embeddings with the first weight matrix: the same
  array the reference's first matrix product is, entry by entry a sum over the 256 contracted coordinates. The stretch of
  host operations after it gathers the product's rows by column index, scales them by the edge weights and adds them up
  by row index — the reference's operations on the same arrays — and recasts the first bias as a row. Every other
  buffer passes through the region and the stretch untouched.
-/
import proofs.«107415_j44504451121629_1_alg».proof.Proof.Host0
import proofs.«107415_j44504451121629_1_alg».proof.Proof.LibSameOps

set_option maxRecDepth 16384

noncomputable section

open scoped BigOperators

namespace Cert.KernelIdeal.HostSide

open Cert.KernelIdeal Cert.KernelIdeal.Gen Idealize.ShloMosaic Idealize.ShloMosaic.TcCoe Idealize.ShloMosaic.ValueIdx Idealize.SL.Sem Idealize.ShloMosaic.StableHlo Cert.LibHostJoin

variable (m : (ℓ : Loc nD τ sig) → Buf (Elt Ideal) ℓ) (ρ : Dev nD → PrngReg)

/-! ## Through the first region: every buffer but its arrays is kept -/

theorem at4_v3 (c : Dev nD) : W4 m ρ c (Proc.devRef .tc main_v3) = Cert.ReferenceIdeal.ReadP.val_main_v3 (F := Ideal) (m ((c : Thread nD τ).loc main_arg0)) :=
  (W4_of_ne m ρ c main_v3 (by decide)).trans (at3_v3 m ρ c)
theorem at4_v6 (c : Dev nD) : W4 m ρ c (Proc.devRef .tc main_v6) = Cert.ReferenceIdeal.ReadP.val_main_v6 (F := Ideal) (m ((c : Thread nD τ).loc main_arg0)) :=
  (W4_of_ne m ρ c main_v6 (by decide)).trans (at3_v6 m ρ c)
theorem at4_v30 (c : Dev nD) : W4 m ρ c (Proc.devRef .tc main_v30) = Cert.ReferenceIdeal.ReadP.val_main_v30 (F := Ideal) (m ((c : Thread nD τ).loc main_arg0)) :=
  (W4_of_ne m ρ c main_v30 (by decide)).trans (at3_v30 m ρ c)
theorem at4_arg1 (c : Dev nD) : W4 m ρ c (Proc.devRef .tc main_arg1) = m ((c : Thread nD τ).loc main_arg1) :=
  (W4_of_ne m ρ c main_arg1 (by decide)).trans (at3_arg1 m ρ c)
theorem at4_arg4 (c : Dev nD) : W4 m ρ c (Proc.devRef .tc main_arg4) = m ((c : Thread nD τ).loc main_arg4) :=
  (W4_of_ne m ρ c main_arg4 (by decide)).trans (at3_arg4 m ρ c)
theorem at4_arg5 (c : Dev nD) : W4 m ρ c (Proc.devRef .tc main_arg5) = m ((c : Thread nD τ).loc main_arg5) :=
  (W4_of_ne m ρ c main_arg5 (by decide)).trans (at3_arg5 m ρ c)
theorem at4_arg6 (c : Dev nD) : W4 m ρ c (Proc.devRef .tc main_arg6) = m ((c : Thread nD τ).loc main_arg6) :=
  (W4_of_ne m ρ c main_arg6 (by decide)).trans (at3_arg6 m ρ c)
theorem at4_arg7 (c : Dev nD) : W4 m ρ c (Proc.devRef .tc main_arg7) = m ((c : Thread nD τ).loc main_arg7) :=
  (W4_of_ne m ρ c main_arg7 (by decide)).trans (at3_arg7 m ρ c)
theorem at4_arg8 (c : Dev nD) : W4 m ρ c (Proc.devRef .tc main_arg8) = m ((c : Thread nD τ).loc main_arg8) :=
  (W4_of_ne m ρ c main_arg8 (by decide)).trans (at3_arg8 m ρ c)
theorem at4_arg9 (c : Dev nD) : W4 m ρ c (Proc.devRef .tc main_arg9) = m ((c : Thread nD τ).loc main_arg9) :=
  (W4_of_ne m ρ c main_arg9 (by decide)).trans (at3_arg9 m ρ c)
theorem at4_arg10 (c : Dev nD) : W4 m ρ c (Proc.devRef .tc main_arg10) = m ((c : Thread nD τ).loc main_arg10) :=
  (W4_of_ne m ρ c main_arg10 (by decide)).trans (at3_arg10 m ρ c)

/-- The first region's output array is the reference's first matrix product: at (r, q) both are the sum over k of the
    embedding's (r, k) entry times the weight's (k, q) entry. The region's array is taken entry by entry from `h0`. -/
theorem at4_v31 (c : Dev nD)
    (h0 : ∀ (A : S50000x256.Idx → EReal) (B : S256x256.Idx → EReal) (O : S50000x256.Idx → EReal),
      V3 m ρ c main_arg2 = A → V3 m ρ c main_arg3 = B → (dat0 (F := Ideal) (V3 m ρ) c).arrAt 2 cfg0.N = O →
      ∀ (r : Fin 50000) (q : Fin 256), O (ix2 r q) = ∑ k : Fin 256, A (ix2 r k) * B (ix2 k q)) :
    W4 m ρ c (Proc.devRef .tc main_v31)
      = Cert.ReferenceIdeal.ReadP.val_main_v31 (F := Ideal) (m ((c : Thread nD τ).loc main_arg2)) (m ((c : Thread nD τ).loc main_arg3)) := by
  obtain ⟨O, hO⟩ : ∃ O : S50000x256.Idx → EReal, (dat0 (F := Ideal) (V3 m ρ) c).arrAt 2 cfg0.N = O := ⟨_, rfl⟩
  refine ((W4_arr m ρ c 2).trans hO).trans ?_
  funext i
  obtain ⟨r, q, rfl⟩ : ∃ (r : Fin 50000) (q : Fin 256), i = ix2 r q := ⟨i 0, i 1, eq_ix2 i⟩
  show O (ix2 r q) = Cert.ReferenceIdeal.ReadP.val_main_v31 (F := Ideal) (m ((c : Thread nD τ).loc main_arg2)) (m ((c : Thread nD τ).loc main_arg3)) (ix2 r q)
  rw [h0 _ _ O (at3_arg2 m ρ c) (at3_arg3 m ρ c) hO r q, Cert.ReferenceIdeal.ReadP.val_main_v31_apply]
  refine Finset.sum_congr rfl fun k _ => ?_
  have el : Cert.ReferenceIdeal.ReadP.lidx_main_v31 (ix2 r q) k = ix2 r k := funext fun a => Fin.ext (by match a with | ⟨0, _⟩ => rfl | ⟨1, _⟩ => rfl)
  have er : Cert.ReferenceIdeal.ReadP.ridx_main_v31 (ix2 r q) k = ix2 k q := funext fun a => Fin.ext (by match a with | ⟨0, _⟩ => rfl | ⟨1, _⟩ => rfl)
  rw [el, er]

/-! ## Through the stretch after it -/

theorem at5_v3 (c : Dev nD) : W5 m ρ c (Proc.devRef .tc main_v3) = Cert.ReferenceIdeal.ReadP.val_main_v3 (F := Ideal) (m ((c : Thread nD τ).loc main_arg0)) :=
  (show StableHlo.after hostOps1 (W4 m ρ c) (Proc.devRef .tc main_v3) = W4 m ρ c (Proc.devRef .tc main_v3) by host_keeps).trans (at4_v3 m ρ c)
theorem at5_v6 (c : Dev nD) : W5 m ρ c (Proc.devRef .tc main_v6) = Cert.ReferenceIdeal.ReadP.val_main_v6 (F := Ideal) (m ((c : Thread nD τ).loc main_arg0)) :=
  (show StableHlo.after hostOps1 (W4 m ρ c) (Proc.devRef .tc main_v6) = W4 m ρ c (Proc.devRef .tc main_v6) by host_keeps).trans (at4_v6 m ρ c)
theorem at5_v30 (c : Dev nD) : W5 m ρ c (Proc.devRef .tc main_v30) = Cert.ReferenceIdeal.ReadP.val_main_v30 (F := Ideal) (m ((c : Thread nD τ).loc main_arg0)) :=
  (show StableHlo.after hostOps1 (W4 m ρ c) (Proc.devRef .tc main_v30) = W4 m ρ c (Proc.devRef .tc main_v30) by host_keeps).trans (at4_v30 m ρ c)
theorem at5_arg1 (c : Dev nD) : W5 m ρ c (Proc.devRef .tc main_arg1) = m ((c : Thread nD τ).loc main_arg1) :=
  (show StableHlo.after hostOps1 (W4 m ρ c) (Proc.devRef .tc main_arg1) = W4 m ρ c (Proc.devRef .tc main_arg1) by host_keeps).trans (at4_arg1 m ρ c)
theorem at5_arg5 (c : Dev nD) : W5 m ρ c (Proc.devRef .tc main_arg5) = m ((c : Thread nD τ).loc main_arg5) :=
  (show StableHlo.after hostOps1 (W4 m ρ c) (Proc.devRef .tc main_arg5) = W4 m ρ c (Proc.devRef .tc main_arg5) by host_keeps).trans (at4_arg5 m ρ c)
theorem at5_arg6 (c : Dev nD) : W5 m ρ c (Proc.devRef .tc main_arg6) = m ((c : Thread nD τ).loc main_arg6) :=
  (show StableHlo.after hostOps1 (W4 m ρ c) (Proc.devRef .tc main_arg6) = W4 m ρ c (Proc.devRef .tc main_arg6) by host_keeps).trans (at4_arg6 m ρ c)
theorem at5_arg7 (c : Dev nD) : W5 m ρ c (Proc.devRef .tc main_arg7) = m ((c : Thread nD τ).loc main_arg7) :=
  (show StableHlo.after hostOps1 (W4 m ρ c) (Proc.devRef .tc main_arg7) = W4 m ρ c (Proc.devRef .tc main_arg7) by host_keeps).trans (at4_arg7 m ρ c)
theorem at5_arg8 (c : Dev nD) : W5 m ρ c (Proc.devRef .tc main_arg8) = m ((c : Thread nD τ).loc main_arg8) :=
  (show StableHlo.after hostOps1 (W4 m ρ c) (Proc.devRef .tc main_arg8) = W4 m ρ c (Proc.devRef .tc main_arg8) by host_keeps).trans (at4_arg8 m ρ c)
theorem at5_arg9 (c : Dev nD) : W5 m ρ c (Proc.devRef .tc main_arg9) = m ((c : Thread nD τ).loc main_arg9) :=
  (show StableHlo.after hostOps1 (W4 m ρ c) (Proc.devRef .tc main_arg9) = W4 m ρ c (Proc.devRef .tc main_arg9) by host_keeps).trans (at4_arg9 m ρ c)
theorem at5_arg10 (c : Dev nD) : W5 m ρ c (Proc.devRef .tc main_arg10) = m ((c : Thread nD τ).loc main_arg10) :=
  (show StableHlo.after hostOps1 (W4 m ρ c) (Proc.devRef .tc main_arg10) = W4 m ρ c (Proc.devRef .tc main_arg10) by host_keeps).trans (at4_arg10 m ρ c)

set_option maxHeartbeats 8000000 in
/-- The first aggregation: the product's rows gathered by column, scaled by the edge weights, summed by row. -/
theorem at5_v44 (c : Dev nD)
    (h0 : ∀ (A : S50000x256.Idx → EReal) (B : S256x256.Idx → EReal) (O : S50000x256.Idx → EReal),
      V3 m ρ c main_arg2 = A → V3 m ρ c main_arg3 = B → (dat0 (F := Ideal) (V3 m ρ) c).arrAt 2 cfg0.N = O →
      ∀ (r : Fin 50000) (q : Fin 256), O (ix2 r q) = ∑ k : Fin 256, A (ix2 r k) * B (ix2 k q)) :
    W5 m ρ c (Proc.devRef .tc main_v44)
      = Cert.ReferenceIdeal.ReadP.val_main_v44 (F := Ideal) (m ((c : Thread nD τ).loc main_arg0)) (m ((c : Thread nD τ).loc main_arg2)) (m ((c : Thread nD τ).loc main_arg3)) := by
  show StableHlo.after hostOps1 (W4 m ρ c) (Proc.devRef .tc main_v44) = _
  host_read
  rw [at4_v3, at4_v6, at4_v30, at4_v31 m ρ c h0]
  rfl

set_option maxHeartbeats 8000000 in
/-- The first bias as a row: the recast [256] → [1, 256] is the reference's broadcast along a new leading axis. -/
theorem at5_v45 (c : Dev nD) :
    W5 m ρ c (Proc.devRef .tc main_v45) = Cert.ReferenceIdeal.ReadP.val_main_v45 (F := Ideal) (m ((c : Thread nD τ).loc main_arg4)) := by
  show StableHlo.after hostOps1 (W4 m ρ c) (Proc.devRef .tc main_v45) = _
  host_read
  rw [at4_arg4]
  exact Cert.SameOps.castRow_eq_bcast _ _ _

end Cert.KernelIdeal.HostSide

end
-- ==== Proof.LibHostScatterSum.lean ====
/-
  Three general facts about the reference's host operations, over arbitrary shapes.

  A scatter whose update elements land on pairwise distinct operand elements: the operand element an update lands on
  becomes the body applied to it and that update, every other element is kept.  (The scatter is a left fold over the
  update elements; at one fixed operand element all steps but at most one are the identity.)

  A sum of a rank-4 array over its two middle axes, read at a result index (r, d): the sum over the pairs (s, g) of the
  entry (r, s, g, d).
-/
import Idealize.ShloMosaic.PureOps.Ideal.Laws
import Idealize.ShloMosaic.Lib.ValueIdx

namespace DilAttn.Ref

open Idealize.ShloMosaic Idealize.ShloMosaic.ValueIdx

section Fold

variable {ι β α : Type}

/-- A fold of pointwise updates: item n replaces the element at g n (if any) by f of it and v n, and changes nothing else.
    No item of the list lands on i: the fold leaves the element at i alone. -/
theorem foldl_point_miss (dec : DecidableEq β) (g : ι → Option β) (v : ι → α) (f : α → α → α)
    (step : (β → α) → ι → (β → α))
    (hsome : ∀ r n i0, g n = some i0 → ∀ i', step r n i' = if i' = i0 then f (r i0) (v n) else r i')
    (hnone : ∀ r n, g n = none → step r n = r)
    (l : List ι) (r : β → α) (i : β) (h : ∀ n ∈ l, g n ≠ some i) : (l.foldl step r) i = r i := by
  induction l generalizing r with
  | nil => rfl
  | cons a l ih =>
    rw [List.foldl_cons, ih _ (fun n hn => h n (List.mem_cons_of_mem _ hn))]
    have ha := h a List.mem_cons_self
    cases hg : g a with
    | none => rw [hnone r a hg]
    | some i0 =>
      have hne : i ≠ i0 := fun e => ha (by rw [hg, e])
      rw [hsome r a i0 hg i]
      exact if_neg hne

/-- Exactly one item n0 of a duplicate-free list lands on i: the fold applies f there once, to v n0. -/
theorem foldl_point_hit (dec : DecidableEq β) (g : ι → Option β) (v : ι → α) (f : α → α → α)
    (step : (β → α) → ι → (β → α))
    (hsome : ∀ r n i0, g n = some i0 → ∀ i', step r n i' = if i' = i0 then f (r i0) (v n) else r i')
    (hnone : ∀ r n, g n = none → step r n = r)
    (l : List ι) (hl : l.Nodup) (r : β → α) (i : β)
    (n0 : ι) (hn0 : n0 ∈ l) (hg0 : g n0 = some i) (huniq : ∀ n ∈ l, g n = some i → n = n0) :
    (l.foldl step r) i = f (r i) (v n0) := by
  induction l generalizing r with
  | nil => exact absurd hn0 List.not_mem_nil
  | cons a l ih =>
    rw [List.foldl_cons]
    have hnd := List.nodup_cons.1 hl
    by_cases hn : a = n0
    · subst hn
      rw [foldl_point_miss dec g v f step hsome hnone l _ i
        (fun n hnl e => hnd.1 (by rw [← huniq n (List.mem_cons_of_mem _ hnl) e]; exact hnl))]
      rw [hsome r a i hg0 i]
      exact if_pos rfl
    · have hn0' : n0 ∈ l := by
        rcases List.mem_cons.1 hn0 with e | e
        · exact absurd e.symm hn
        · exact e
      rw [ih hnd.2 _ hn0' (fun n hnl => huniq n (List.mem_cons_of_mem _ hnl))]
      refine congrArg (fun t => f t (v n0)) ?_
      exact foldl_point_miss dec g v f step hsome hnone [a] r i (fun n hnl e => hn (by
        rw [List.mem_singleton.1 hnl] at e; exact huniq a List.mem_cons_self e))

end Fold

section Scatter

variable {s si u : Shape} {w : Nat} {α : Type}

/-- No update element lands on operand element i: the scatter keeps it. -/
theorem scatter_miss (d : ScatterDims s si u) (f : α → α → α) (x : s.Idx → α) (idx : IVec si w) (upd : u.Idx → α)
    (i : s.Idx) (h : ∀ j, d.resultIdx? j idx ≠ some i) : Host.scatter d f x idx upd i = x i := by
  unfold Host.scatter
  exact foldl_point_miss inferInstance (fun n => d.resultIdx? (u.rowMajor.symm n) idx) (fun n => upd (u.rowMajor.symm n)) f _
    (fun r n i0 hg i' => by simp only [hg]) (fun r n hg => by simp only [hg]) _ x i (fun n _ => h _)

/-- Update element j, and no other, lands on operand element i: the scatter applies its body to the two. -/
theorem scatter_hit (d : ScatterDims s si u) (f : α → α → α) (x : s.Idx → α) (idx : IVec si w) (upd : u.Idx → α)
    (i : s.Idx) (j : u.Idx) (hj : d.resultIdx? j idx = some i) (huniq : ∀ j', d.resultIdx? j' idx = some i → j' = j) :
    Host.scatter d f x idx upd i = f (x i) (upd j) := by
  unfold Host.scatter
  refine (foldl_point_hit inferInstance (fun n => d.resultIdx? (u.rowMajor.symm n) idx) (fun n => upd (u.rowMajor.symm n)) f _
    (fun r n i0 hg i' => by simp only [hg]) (fun r n hg => by simp only [hg])
    (List.finRange u.numel) (List.nodup_finRange _) x i (u.rowMajor j) (List.mem_finRange _) ?_ ?_).trans ?_
  · show d.resultIdx? (u.rowMajor.symm (u.rowMajor j)) idx = some i
    rw [Equiv.symm_apply_apply]; exact hj
  · intro n _ hn
    have e := huniq _ hn
    rw [← e, Equiv.apply_symm_apply]
  · show f (x i) (upd (u.rowMajor.symm (u.rowMajor j))) = _
    rw [Equiv.symm_apply_apply]

end Scatter

section Sum12

/-- The source indices of a rank-4 array that drop, with the two middle axes removed, to (r, d) are the (r, s, g, d);
    so the sum over them is the double sum over s and g. -/
theorem sum_filter_drop12 {R L G D : Nat} (h' : (⟨4, ![R, L, G, D]⟩ : Shape).ReducesTo [1, 2] (⟨2, ![R, D]⟩ : Shape))
    (y : (⟨4, ![R, L, G, D]⟩ : Shape).Idx → EReal) (r : Fin R) (d : Fin D) :
    ∑ i ∈ Finset.univ.filter (fun i => h'.drop i = ix2 r d), y i = ∑ s : Fin L, ∑ g : Fin G, y (ix4 r s g d) := by
  have hdrop : ∀ i : (⟨4, ![R, L, G, D]⟩ : Shape).Idx, h'.drop i = ix2 (i 0) (i 3) := fun i =>
    funext fun b => Fin.ext (by match b with | ⟨0, _⟩ => rfl | ⟨1, _⟩ => rfl)
  have hmem : ∀ i : (⟨4, ![R, L, G, D]⟩ : Shape).Idx, h'.drop i = ix2 r d → i = ix4 r (i 1) (i 2) d := fun i hi => by
    rw [hdrop i] at hi
    have h0 : i 0 = r := congrFun hi 0
    have h3 : i 3 = d := congrFun hi 1
    funext a
    match a with
    | ⟨0, _⟩ => exact h0
    | ⟨1, _⟩ => rfl
    | ⟨2, _⟩ => rfl
    | ⟨3, _⟩ => exact h3
  rw [← Fintype.sum_prod_type']
  refine Finset.sum_nbij' (fun i => ((i 1, i 2) : Fin L × Fin G)) (fun p => ix4 r p.1 p.2 d) ?_ ?_ ?_ ?_ ?_
  · intro i _; exact Finset.mem_univ _
  · intro p _; exact Finset.mem_filter.2 ⟨Finset.mem_univ _, (hdrop _).trans rfl⟩
  · intro i hi; exact (hmem i (Finset.mem_filter.1 hi).2).symm
  · intro p _; rfl
  · intro i hi; exact congrArg y (hmem i (Finset.mem_filter.1 hi).2)

end Sum12

end DilAttn.Ref
-- ==== Proof.Pad.lean ====
/-
  The last linear layer is padded from width 1 to width 128 by two overwrite scatters, each with ONE scatter index,
  the constant 0.

  Weight: the updates are the [256, 1] column, both of its axes window axes; the one index vector has one component,
  for operand axis 1.  So for update element (k, 0) the window starts at 0 on axis 0 (an axis the map does not name) and
  at the index word 0 on axis 1, the window coordinate is (k, 0), and the element lands on operand element (k, 0).  A
  different update element has a different row, so lands elsewhere.  The scatter's body keeps the update, hence column 0
  of the result is the column.

  Bias: the same in rank one; the only update element lands on operand element 0.
-/
import proofs.«107415_j44504451121629_1_alg».proof.KernelIdeal
import proofs.«107415_j44504451121629_1_alg».proof.Proof.Gen.KernelIdeal
import proofs.«107415_j44504451121629_1_alg».proof.Proof.LibHostScatterSum
import Idealize.ShloMosaic.PureOps.Ideal.Laws
import Idealize.ShloMosaic.Lib.ValueIdx

set_option maxRecDepth 16384

noncomputable section

namespace Cert.KernelIdeal.Pad

open Cert.KernelIdeal Cert.KernelIdeal.Gen Idealize.ShloMosaic Idealize.ShloMosaic.ValueIdx

/-- The last layer's weight column padded with zero columns to 128: the overwrite scatter of the [256, 1] column into a
    zero [256, 128] array at column index 0 (the scatter index is the constant 0). -/
def padW (w : FVec Ideal S256x1 .f32) : FVec Ideal S256x128 .f32 :=
  Host.scatter scatter_S256x128_S1_S256x1_01_n_1_0 (fun _ b => b)
    (broadcastInDim S256x128 ![] bcast_S_S256x128 (constant (F := Ideal) S_ .f32 0x00000000#32))
    (broadcastInDim S1 ![] bcast_S_S1 (constantI S_ 32 0#32)) w

/-- The last layer's bias padded with zeros to 128 entries, likewise. -/
def padB (b : FVec Ideal S1 .f32) : FVec Ideal S128 .f32 :=
  Host.scatter scatter_S128_S1_S1_0_n_0_0 (fun _ b => b)
    (broadcastInDim S128 ![] bcast_S_S128 (constant (F := Ideal) S_ .f32 0x00000000#32))
    (broadcastInDim S1 ![] bcast_S_S1 (constantI S_ 32 0#32)) b

/-- A scatter whose index array holds the word 0 everywhere starts every window at 0 on every operand axis: 0 read off the
    indices on an axis the map names, 0 by definition on the others. -/
private theorem start_eq_zero {s si u : Shape} (d : ScatterDims s si u) (idx : IVec si 32) (hidx : ∀ a, idx a = 0#32)
    (j : u.Idx) (a : Fin s.rank) : d.start j idx a = 0 := by
  unfold ScatterDims.start
  by_cases ha : a ∈ d.scatterDimsToOperandDims
  · rw [dif_pos ha, hidx]; rfl
  · rw [dif_neg ha]

/-- The scatter index array: the word 0 at its one index. -/
private theorem idx_zero (a : S1.Idx) : (broadcastInDim S1 ![] bcast_S_S1 (constantI S_ 32 0#32) : IVec S1 32) a = 0#32 := rfl

/-- Weight scatter: both axes of the update are window axes, in order, so the window coordinate of update element (k, c) is
    k on axis 0 and c = 0 on axis 1. -/
private theorem windowW (k : Fin 256) (c : Fin 1) (a : Fin 2) :
    scatter_S256x128_S1_S256x1_01_n_1_0.window (ix2 k c) a = (ix2 k (0 : Fin 128) a).val := by
  match a with
  | ⟨0, _⟩ => rfl
  | ⟨1, _⟩ =>
    have hc : c.val = 0 := by omega
    exact hc

/-- Weight scatter: update element (k, c) lands on operand element (k, 0). -/
private theorem resultIdxW (k : Fin 256) (c : Fin 1) :
    scatter_S256x128_S1_S256x1_01_n_1_0.resultIdx? (ix2 k c) (broadcastInDim S1 ![] bcast_S_S1 (constantI S_ 32 0#32))
      = some (ix2 k (0 : Fin 128)) := by
  have hsum : ∀ a : Fin 2,
      scatter_S256x128_S1_S256x1_01_n_1_0.start (ix2 k c) (broadcastInDim S1 ![] bcast_S_S1 (constantI S_ 32 0#32)) a
        + (scatter_S256x128_S1_S256x1_01_n_1_0.window (ix2 k c) a : Int) = ((ix2 k (0 : Fin 128) a).val : Int) := fun a => by
    rw [start_eq_zero _ _ idx_zero, windowW, Int.zero_add]
  unfold ScatterDims.resultIdx?
  rw [dif_pos (fun a => by
    rw [hsum a]
    exact ⟨Int.natCast_nonneg _, Int.ofNat_lt.2 (ix2 k (0 : Fin 128) a).isLt⟩)]
  refine congrArg some (funext fun a => Fin.ext ?_)
  show (_ + _ : Int).toNat = _
  rw [hsum a, Int.toNat_natCast]

/-- Bias scatter: the update's one axis is a window axis, so the window coordinate of update element c is c = 0. -/
private theorem windowB (c : Fin 1) (a : Fin 1) :
    scatter_S128_S1_S1_0_n_0_0.window (ix1 c) a = (ix1 (0 : Fin 128) a).val := by
  match a with
  | ⟨0, _⟩ =>
    have hc : c.val = 0 := by omega
    exact hc

/-- Bias scatter: update element c lands on operand element 0. -/
private theorem resultIdxB (c : Fin 1) :
    scatter_S128_S1_S1_0_n_0_0.resultIdx? (ix1 c) (broadcastInDim S1 ![] bcast_S_S1 (constantI S_ 32 0#32))
      = some (ix1 (0 : Fin 128)) := by
  have hsum : ∀ a : Fin 1,
      scatter_S128_S1_S1_0_n_0_0.start (ix1 c) (broadcastInDim S1 ![] bcast_S_S1 (constantI S_ 32 0#32)) a
        + (scatter_S128_S1_S1_0_n_0_0.window (ix1 c) a : Int) = ((ix1 (0 : Fin 128) a).val : Int) := fun a => by
    rw [start_eq_zero _ _ idx_zero, windowB, Int.zero_add]
  unfold ScatterDims.resultIdx?
  rw [dif_pos (fun a => by
    rw [hsum a]
    exact ⟨Int.natCast_nonneg _, Int.ofNat_lt.2 (ix1 (0 : Fin 128) a).isLt⟩)]
  refine congrArg some (funext fun a => Fin.ext ?_)
  show (_ + _ : Int).toNat = _
  rw [hsum a, Int.toNat_natCast]

/-- Column 0 of the padded weight is the weight column. -/
theorem padW_col0 (w : FVec Ideal S256x1 .f32) (k : Fin 256) : padW w (ix2 k 0) = w (ix2 k 0) := by
  unfold padW
  refine DilAttn.Ref.scatter_hit _ _ _ _ _ (ix2 k 0) (ix2 k 0) (resultIdxW k 0) ?_
  intro j' hj'
  obtain ⟨k', c', rfl⟩ : ∃ (k' : Fin 256) (c' : Fin 1), j' = ix2 k' c' := ⟨j' 0, j' 1, eq_ix2 j'⟩
  rw [resultIdxW] at hj'
  have h0 : k' = k := congrFun (Option.some.inj hj') 0
  have h1 : c' = 0 := Subsingleton.elim _ _
  rw [h0, h1]

/-- Entry 0 of the padded bias is the bias. -/
theorem padB_zero (b : FVec Ideal S1 .f32) : padB b (ix1 0) = b (ix1 0) := by
  unfold padB
  refine DilAttn.Ref.scatter_hit _ _ _ _ _ (ix1 0) (ix1 0) (resultIdxB 0) ?_
  intro j' _
  obtain ⟨c', rfl⟩ : ∃ c' : Fin 1, j' = ix1 c' := ⟨j' 0, eq_ix1 j'⟩
  have h1 : c' = 0 := Subsingleton.elim _ _
  rw [h1]

end Cert.KernelIdeal.Pad

end
-- ==== Proof.LibIndexCoords.lean ====
/-
  An array read at an index is the array read at the index's coordinates; and three scalar facts at the exact values.

  An index of a literal shape is determined by its coordinates (`eq_ix1` … `eq_ix3`), so `x u` can be rewritten to
  `x (ix2 (u 0) (u 1))` for ANY index term `u`, however it was computed: after that the coordinates `u 0`, `u 1` reduce by
  evaluation where `u` is a composition of index maps written by cases on the axis, and a closing `rfl` sees through
  them. On an axis of extent one the coordinate is `0`. These are meant for `rw [app_ab x]`, with the array `x` named and
  the index left to unification.

  The scalar facts: the word `0x3F800000` denotes one, the square root of one is one, and division by one is the
  identity on every extended real.
-/
import Idealize.ShloMosaic.PureOps.Ideal
import Idealize.ShloMosaic.PureOps.IdealRules
import Idealize.ShloMosaic.Lib.ValueIdx

namespace Idealize.ShloMosaic.ValueIdx

open Idealize.ShloMosaic

section Index
variable {α : Type}

/-- A vector at any index is the vector at that index's coordinate. -/
theorem app_a {n : ℕ} (x : (⟨1, ![n]⟩ : Shape).Idx → α) (u : (⟨1, ![n]⟩ : Shape).Idx) : x u = x (ix1 (u 0)) :=
  congrArg x (eq_ix1 u)

/-- A matrix at any index is the matrix at that index's two coordinates. -/
theorem app_ab {n0 n1 : ℕ} (x : (⟨2, ![n0, n1]⟩ : Shape).Idx → α) (u : (⟨2, ![n0, n1]⟩ : Shape).Idx) :
    x u = x (ix2 (u 0) (u 1)) :=
  congrArg x (eq_ix2 u)

/-- A rank-3 array at any index is the array at that index's three coordinates. -/
theorem app_abc {n0 n1 n2 : ℕ} (x : (⟨3, ![n0, n1, n2]⟩ : Shape).Idx → α) (u : (⟨3, ![n0, n1, n2]⟩ : Shape).Idx) :
    x u = x (ix3 (u 0) (u 1) (u 2)) :=
  congrArg x (eq_ix3 u)

/-- An axis of extent one has the single coordinate zero. -/
theorem fin_one (a : Fin 1) : a = 0 := Subsingleton.elim _ _

/-- A one-entry vector is read at `0` whatever the index. -/
theorem app_1 (x : (⟨1, ![1]⟩ : Shape).Idx → α) (u : (⟨1, ![1]⟩ : Shape).Idx) : x u = x (ix1 0) := by
  rw [app_a x u, fin_one (u 0)]

/-- A one-entry matrix is read at `(0, 0)` whatever the index. -/
theorem app_11 (x : (⟨2, ![1, 1]⟩ : Shape).Idx → α) (u : (⟨2, ![1, 1]⟩ : Shape).Idx) : x u = x (ix2 0 0) := by
  rw [app_ab x u, fin_one (u 0), fin_one (u 1)]

/-- A one-row matrix is read in row `0`. -/
theorem app_1b {n : ℕ} (x : (⟨2, ![1, n]⟩ : Shape).Idx → α) (u : (⟨2, ![1, n]⟩ : Shape).Idx) : x u = x (ix2 0 (u 1)) := by
  rw [app_ab x u, fin_one (u 0)]

/-- A one-column matrix is read in column `0`. -/
theorem app_a1 {n : ℕ} (x : (⟨2, ![n, 1]⟩ : Shape).Idx → α) (u : (⟨2, ![n, 1]⟩ : Shape).Idx) : x u = x (ix2 (u 0) 0) := by
  rw [app_ab x u, fin_one (u 1)]

/-- A rank-3 array with a leading unit axis is read at `0` on it. -/
theorem app_1ab {n1 n2 : ℕ} (x : (⟨3, ![1, n1, n2]⟩ : Shape).Idx → α) (u : (⟨3, ![1, n1, n2]⟩ : Shape).Idx) :
    x u = x (ix3 0 (u 1) (u 2)) := by
  rw [app_abc x u, fin_one (u 0)]

end Index

/-- The f32 word of `1.0` denotes one. -/
theorem ofBits_one_f32 : Ideal.ofBits .f32 0x3F800000#32 = 1 := IdealRules.sign_bit.ideal_onePat .f32

/-- The square root of one is one. -/
theorem ideal_sqrt_one : Ideal.sqrt 1 = 1 := by
  rw [← EReal.coe_one, Ideal.sqrt_coe, if_neg (by norm_num), Real.sqrt_one]

/-- Dividing by one changes nothing, at the infinities too. -/
theorem ideal_div_one (x : EReal) : Ideal.div x 1 = x := by
  rw [← EReal.coe_one, Ideal.div_coe one_ne_zero, _root_.div_one, EReal.coe_one, mul_one]

end Idealize.ShloMosaic.ValueIdx
-- ==== Proof.RefConsts.lean ====
/-
  The constants of the reference's rectifiers and of its logistic function, at the exact values: each rectifier cuts at
  the broadcast of the word of zero, which is 0; the logistic's numerator and the addend of its denominator are
  broadcasts of the word of one, which is 1.
-/
import proofs.«107415_j44504451121629_1_alg».proof.Proof.RefReadP
import proofs.«107415_j44504451121629_1_alg».proof.Proof.LibIndexCoords

set_option maxRecDepth 16384

noncomputable section

namespace Cert.RefSide

open Cert.ReferenceIdeal Cert.ReferenceIdeal.ReadP Idealize.ShloMosaic Idealize.ShloMosaic.ValueIdx

theorem zero_call1 (i : S50000x256.Idx) : val_main_call1_v0 (F := Ideal) i = 0 :=
  (val_main_call1_v0_apply (F := Ideal) i).trans
    ((show val_main_call1_cst (F := Ideal) _ = Ideal.ofBits .f32 0x00000000#32 from rfl).trans Ideal.ofBits_zero_f32)
theorem zero_call2 (i : S200000x256.Idx) : val_main_call2_v0 (F := Ideal) i = 0 :=
  (val_main_call2_v0_apply (F := Ideal) i).trans
    ((show val_main_call2_cst (F := Ideal) _ = Ideal.ofBits .f32 0x00000000#32 from rfl).trans Ideal.ofBits_zero_f32)
theorem one_v96 (i : S200000x1.Idx) : val_main_v96 (F := Ideal) i = 1 :=
  (val_main_v96_apply (F := Ideal) i).trans
    ((show val_main_cst_17 (F := Ideal) _ = Ideal.ofBits .f32 0x3F800000#32 from rfl).trans ofBits_one_f32)
theorem one_v98 (i : S200000x1.Idx) : val_main_v98 (F := Ideal) i = 1 :=
  (val_main_v98_apply (F := Ideal) i).trans
    ((show val_main_cst_18 (F := Ideal) _ = Ideal.ofBits .f32 0x3F800000#32 from rfl).trans ofBits_one_f32)

end Cert.RefSide

end
-- ==== Proof.Host2.lean ====
/-
  The second layer's product, the second aggregation, and what the predictor is given.

  The second region adds the bias row to the first aggregation, cuts at zero, and multiplies by the second weight matrix:
  entry by entry the reference's addition, maximum with zero and matrix product. The stretch after it aggregates that
  product as before, adds the second bias, gathers the rows of the two ends of every query edge, and prepares the
  predictor's parameters: its first bias as a row, and its last layer's weight column and bias padded with zeros to 128
  lanes.
-/
import proofs.«107415_j44504451121629_1_alg».proof.Proof.Host1
import proofs.«107415_j44504451121629_1_alg».proof.Proof.Pad
import proofs.«107415_j44504451121629_1_alg».proof.Proof.RefConsts

set_option maxRecDepth 16384

noncomputable section

open scoped BigOperators

namespace Cert.KernelIdeal.HostSide

open Cert.KernelIdeal Cert.KernelIdeal.Gen Idealize.ShloMosaic Idealize.ShloMosaic.TcCoe Idealize.ShloMosaic.ValueIdx Idealize.SL.Sem Idealize.ShloMosaic.StableHlo Cert.LibHostJoin

variable (m : (ℓ : Loc nD τ sig) → Buf (Elt Ideal) ℓ) (ρ : Dev nD → PrngReg)

open Cert.KernelIdeal.Pad

/-! ## Through the second region -/

theorem at6_v3 (c : Dev nD) : W6 m ρ c (Proc.devRef .tc main_v3) = Cert.ReferenceIdeal.ReadP.val_main_v3 (F := Ideal) (m ((c : Thread nD τ).loc main_arg0)) :=
  (W6_of_ne m ρ c main_v3 (by decide)).trans (at5_v3 m ρ c)
theorem at6_v6 (c : Dev nD) : W6 m ρ c (Proc.devRef .tc main_v6) = Cert.ReferenceIdeal.ReadP.val_main_v6 (F := Ideal) (m ((c : Thread nD τ).loc main_arg0)) :=
  (W6_of_ne m ρ c main_v6 (by decide)).trans (at5_v6 m ρ c)
theorem at6_v30 (c : Dev nD) : W6 m ρ c (Proc.devRef .tc main_v30) = Cert.ReferenceIdeal.ReadP.val_main_v30 (F := Ideal) (m ((c : Thread nD τ).loc main_arg0)) :=
  (W6_of_ne m ρ c main_v30 (by decide)).trans (at5_v30 m ρ c)
theorem at6_arg1 (c : Dev nD) : W6 m ρ c (Proc.devRef .tc main_arg1) = m ((c : Thread nD τ).loc main_arg1) :=
  (W6_of_ne m ρ c main_arg1 (by decide)).trans (at5_arg1 m ρ c)
theorem at6_arg6 (c : Dev nD) : W6 m ρ c (Proc.devRef .tc main_arg6) = m ((c : Thread nD τ).loc main_arg6) :=
  (W6_of_ne m ρ c main_arg6 (by decide)).trans (at5_arg6 m ρ c)
theorem at6_arg7 (c : Dev nD) : W6 m ρ c (Proc.devRef .tc main_arg7) = m ((c : Thread nD τ).loc main_arg7) :=
  (W6_of_ne m ρ c main_arg7 (by decide)).trans (at5_arg7 m ρ c)
theorem at6_arg8 (c : Dev nD) : W6 m ρ c (Proc.devRef .tc main_arg8) = m ((c : Thread nD τ).loc main_arg8) :=
  (W6_of_ne m ρ c main_arg8 (by decide)).trans (at5_arg8 m ρ c)
theorem at6_arg9 (c : Dev nD) : W6 m ρ c (Proc.devRef .tc main_arg9) = m ((c : Thread nD τ).loc main_arg9) :=
  (W6_of_ne m ρ c main_arg9 (by decide)).trans (at5_arg9 m ρ c)
theorem at6_arg10 (c : Dev nD) : W6 m ρ c (Proc.devRef .tc main_arg10) = m ((c : Thread nD τ).loc main_arg10) :=
  (W6_of_ne m ρ c main_arg10 (by decide)).trans (at5_arg10 m ρ c)

/-- The second region's output array is the reference's second matrix product of the rectified, biased aggregation. -/
theorem at6_v46 (c : Dev nD)
    (h0 : ∀ (A : S50000x256.Idx → EReal) (B : S256x256.Idx → EReal) (O : S50000x256.Idx → EReal),
      V3 m ρ c main_arg2 = A → V3 m ρ c main_arg3 = B → (dat0 (F := Ideal) (V3 m ρ) c).arrAt 2 cfg0.N = O →
      ∀ (r : Fin 50000) (q : Fin 256), O (ix2 r q) = ∑ k : Fin 256, A (ix2 r k) * B (ix2 k q))
    (h1 : ∀ (A : S50000x256.Idx → EReal) (b : S1x256.Idx → EReal) (B : S256x256.Idx → EReal) (O : S50000x256.Idx → EReal),
      V5 m ρ c main_v44 = A → V5 m ρ c main_v45 = b → V5 m ρ c main_arg5 = B → (dat1 (F := Ideal) (V5 m ρ) c).arrAt 3 cfg1.N = O →
      ∀ (r : Fin 50000) (q : Fin 256), O (ix2 r q) = ∑ k : Fin 256, max (A (ix2 r k) + b (ix2 0 k)) 0 * B (ix2 k q)) :
    W6 m ρ c (Proc.devRef .tc main_v46)
      = Cert.ReferenceIdeal.ReadP.val_main_v49 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  obtain ⟨O, hO⟩ : ∃ O : S50000x256.Idx → EReal, (dat1 (F := Ideal) (V5 m ρ) c).arrAt 3 cfg1.N = O := ⟨_, rfl⟩
  refine ((W6_arr m ρ c 3).trans hO).trans ?_
  funext i
  obtain ⟨r, q, rfl⟩ : ∃ (r : Fin 50000) (q : Fin 256), i = ix2 r q := ⟨i 0, i 1, eq_ix2 i⟩
  show O (ix2 r q) = Cert.ReferenceIdeal.ReadP.val_main_v49 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (ix2 r q)
  rw [h1 _ _ _ O (at5_v44 m ρ c h0) (at5_v45 m ρ c) (at5_arg5 m ρ c) hO r q, Cert.ReferenceIdeal.ReadP.val_main_v49_apply]
  refine Finset.sum_congr rfl fun k _ => ?_
  have el : Cert.ReferenceIdeal.ReadP.lidx_main_v49 (ix2 r q) k = ix2 r k := funext fun a => Fin.ext (by match a with | ⟨0, _⟩ => rfl | ⟨1, _⟩ => rfl)
  have er : Cert.ReferenceIdeal.ReadP.ridx_main_v49 (ix2 r q) k = ix2 k q := funext fun a => Fin.ext (by match a with | ⟨0, _⟩ => rfl | ⟨1, _⟩ => rfl)
  have eb : Cert.ReferenceIdeal.ReadP.idx_main_v46 (ix2 r k) = ix2 0 k := funext fun a => Fin.ext (by match a with | ⟨0, _⟩ => rfl | ⟨1, _⟩ => rfl)
  rw [el, er, Cert.ReferenceIdeal.ReadP.val_main_v48_apply, Cert.ReferenceIdeal.ReadP.val_main_v47_apply, Cert.ReferenceIdeal.ReadP.val_main_v46_apply,
    Cert.RefSide.zero_call1, eb]
  simp only [Ideal.maximumf_def, Ideal.addf_def]

/-! ## Through the stretch after it -/

theorem at7_arg7 (c : Dev nD) : W7 m ρ c (Proc.devRef .tc main_arg7) = m ((c : Thread nD τ).loc main_arg7) :=
  (show StableHlo.after hostOps2 (W6 m ρ c) (Proc.devRef .tc main_arg7) = W6 m ρ c (Proc.devRef .tc main_arg7) by host_keeps).trans (at6_arg7 m ρ c)

set_option maxHeartbeats 16000000 in
/-- The node features (second aggregation plus the second bias) gathered at the query edges' first ends. -/
theorem at7_v71 (c : Dev nD)
    (h0 : ∀ (A : S50000x256.Idx → EReal) (B : S256x256.Idx → EReal) (O : S50000x256.Idx → EReal),
      V3 m ρ c main_arg2 = A → V3 m ρ c main_arg3 = B → (dat0 (F := Ideal) (V3 m ρ) c).arrAt 2 cfg0.N = O →
      ∀ (r : Fin 50000) (q : Fin 256), O (ix2 r q) = ∑ k : Fin 256, A (ix2 r k) * B (ix2 k q))
    (h1 : ∀ (A : S50000x256.Idx → EReal) (b : S1x256.Idx → EReal) (B : S256x256.Idx → EReal) (O : S50000x256.Idx → EReal),
      V5 m ρ c main_v44 = A → V5 m ρ c main_v45 = b → V5 m ρ c main_arg5 = B → (dat1 (F := Ideal) (V5 m ρ) c).arrAt 3 cfg1.N = O →
      ∀ (r : Fin 50000) (q : Fin 256), O (ix2 r q) = ∑ k : Fin 256, max (A (ix2 r k) + b (ix2 0 k)) 0 * B (ix2 k q)) :
    W7 m ρ c (Proc.devRef .tc main_v71) = Cert.ReferenceIdeal.ReadP.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W6 m ρ c) (Proc.devRef .tc main_v71) = _
  host_read
  rw [at6_v3, at6_v6, at6_v30, at6_v46 m ρ c h0 h1, at6_arg6, at6_arg1]
  rfl

set_option maxHeartbeats 16000000 in
/-- The node features gathered at the query edges' second ends. -/
theorem at7_v80 (c : Dev nD)
    (h0 : ∀ (A : S50000x256.Idx → EReal) (B : S256x256.Idx → EReal) (O : S50000x256.Idx → EReal),
      V3 m ρ c main_arg2 = A → V3 m ρ c main_arg3 = B → (dat0 (F := Ideal) (V3 m ρ) c).arrAt 2 cfg0.N = O →
      ∀ (r : Fin 50000) (q : Fin 256), O (ix2 r q) = ∑ k : Fin 256, A (ix2 r k) * B (ix2 k q))
    (h1 : ∀ (A : S50000x256.Idx → EReal) (b : S1x256.Idx → EReal) (B : S256x256.Idx → EReal) (O : S50000x256.Idx → EReal),
      V5 m ρ c main_v44 = A → V5 m ρ c main_v45 = b → V5 m ρ c main_arg5 = B → (dat1 (F := Ideal) (V5 m ρ) c).arrAt 3 cfg1.N = O →
      ∀ (r : Fin 50000) (q : Fin 256), O (ix2 r q) = ∑ k : Fin 256, max (A (ix2 r k) + b (ix2 0 k)) 0 * B (ix2 k q)) :
    W7 m ρ c (Proc.devRef .tc main_v80) = Cert.ReferenceIdeal.ReadP.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W6 m ρ c) (Proc.devRef .tc main_v80) = _
  host_read
  rw [at6_v3, at6_v6, at6_v30, at6_v46 m ρ c h0 h1, at6_arg6, at6_arg1]
  rfl

set_option maxHeartbeats 8000000 in
/-- The predictor's first bias as a row. -/
theorem at7_v87 (c : Dev nD) :
    W7 m ρ c (Proc.devRef .tc main_v87) = Cert.ReferenceIdeal.ReadP.val_main_v86 (F := Ideal) (m ((c : Thread nD τ).loc main_arg8)) := by
  show StableHlo.after hostOps2 (W6 m ρ c) (Proc.devRef .tc main_v87) = _
  host_read
  rw [at6_arg8]
  exact Cert.SameOps.castRow_eq_bcast _ _ _

set_option maxHeartbeats 8000000 in
/-- The last layer's weight column, padded to 128 columns. -/
theorem at7_v83 (c : Dev nD) :
    W7 m ρ c (Proc.devRef .tc main_v83) = padW (m ((c : Thread nD τ).loc main_arg9)) := by
  show StableHlo.after hostOps2 (W6 m ρ c) (Proc.devRef .tc main_v83) = _
  host_read
  rw [at6_arg9]
  rfl

set_option maxHeartbeats 8000000 in
/-- The last layer's bias, padded to 128 entries, as a row. -/
theorem at7_v88 (c : Dev nD) :
    W7 m ρ c (Proc.devRef .tc main_v88) = shapeCast S1x128 (padB (m ((c : Thread nD τ).loc main_arg10))) shapeCasts_S128_S1x128 := by
  show StableHlo.after hostOps2 (W6 m ρ c) (Proc.devRef .tc main_v88) = _
  host_read
  rw [at6_arg10]
  rfl

end Cert.KernelIdeal.HostSide

end
-- ==== Proof.RefSide.lean ====
/-
  The reference's last stretch read at a query edge.

  After gathering the two ends' node features, the reference multiplies them entry by entry, applies the first predictor
  layer (a matrix product, a bias, a cut at zero), then the last layer (a product with one weight column, a bias), and
  the logistic function, spelt as 1 / (1 + exp(-x)). Read at query edge q this is the logistic of the sum over the hidden
  coordinate k of the rectified hidden value times the weight, plus the bias; the hidden value is the sum over j of the
  product of the two gathered features times the first layer's weight, plus its bias.
-/
import proofs.«107415_j44504451121629_1_alg».proof.Proof.RefConsts

set_option maxRecDepth 16384

noncomputable section

open scoped BigOperators

namespace Cert.RefSide

open Cert.ReferenceIdeal Cert.ReferenceIdeal.ReadP Idealize.ShloMosaic Idealize.ShloMosaic.ValueIdx

/-- The rectified hidden value of query edge q at hidden coordinate k. -/
theorem hidden_at (x0 : (⟨S2x800000, .i32⟩ : BufTy).Contents (Elt Ideal)) (x1 : (⟨S2x200000, .i32⟩ : BufTy).Contents (Elt Ideal))
    (x2 : (⟨S50000x256, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (x7 : (⟨S256x256, .f32⟩ : BufTy).Contents (Elt Ideal))
    (x8 : (⟨S256, .f32⟩ : BufTy).Contents (Elt Ideal))
    (q : Fin 200000) (k : Fin 256) :
    val_main_v89 (F := Ideal) x0 x1 x2 x3 x4 x5 x6 x7 x8 (ix2 q k)
      = max ((∑ j : Fin 256, (val_main_v74 (F := Ideal) x0 x1 x2 x3 x4 x5 x6 (ix2 q j) * val_main_v83 (F := Ideal) x0 x1 x2 x3 x4 x5 x6 (ix2 q j)) * x7 (ix2 j k))
              + val_main_v86 (F := Ideal) x8 (ix2 0 k)) 0 := by
  have eb : idx_main_v87 (ix2 q k) = ix2 0 k := funext fun a => Fin.ext (by match a with | ⟨0, _⟩ => rfl | ⟨1, _⟩ => rfl)
  rw [val_main_v89_apply, val_main_v88_apply, val_main_v85_apply, val_main_v87_apply, zero_call2, eb]
  simp only [Ideal.maximumf_def, Ideal.addf_def]
  refine congrArg (fun s : EReal => max (s + val_main_v86 (F := Ideal) x8 (ix2 0 k)) 0) ?_
  refine Finset.sum_congr rfl fun j _ => ?_
  have el : lidx_main_v85 (ix2 q k) j = ix2 q j := funext fun a => Fin.ext (by match a with | ⟨0, _⟩ => rfl | ⟨1, _⟩ => rfl)
  have er : ridx_main_v85 (ix2 q k) j = ix2 j k := funext fun a => Fin.ext (by match a with | ⟨0, _⟩ => rfl | ⟨1, _⟩ => rfl)
  rw [el, er, val_main_v84_apply]
  rfl

/-- The reference's result at query edge q. -/
theorem out_at (x0 : (⟨S2x800000, .i32⟩ : BufTy).Contents (Elt Ideal)) (x1 : (⟨S2x200000, .i32⟩ : BufTy).Contents (Elt Ideal))
    (x2 : (⟨S50000x256, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (x7 : (⟨S256x256, .f32⟩ : BufTy).Contents (Elt Ideal))
    (x8 : (⟨S256, .f32⟩ : BufTy).Contents (Elt Ideal))
    (x9 : (⟨S256x1, .f32⟩ : BufTy).Contents (Elt Ideal)) (x10 : (⟨S1, .f32⟩ : BufTy).Contents (Elt Ideal)) (q : Fin 200000) :
    val_main_v100 (F := Ideal) x0 x1 x2 x3 x4 x5 x6 x7 x8 x9 x10 (ix1 q)
      = Ideal.logistic ((∑ k : Fin 256,
            max ((∑ j : Fin 256, (val_main_v74 (F := Ideal) x0 x1 x2 x3 x4 x5 x6 (ix2 q j) * val_main_v83 (F := Ideal) x0 x1 x2 x3 x4 x5 x6 (ix2 q j)) * x7 (ix2 j k))
                  + val_main_v86 (F := Ideal) x8 (ix2 0 k)) 0 * x9 (ix2 k 0)) + x10 (ix1 0)) := by
  have e100 : idx_main_v100 (ix1 q) = ix2 q 0 := funext fun a => Fin.ext (by match a with | ⟨0, _⟩ => exact Nat.div_one _ | ⟨1, _⟩ => rfl)
  have e92 : idx_main_v91 (idx_main_v92 (ix2 q 0)) = ix1 0 := funext fun a => Fin.ext (by match a with | ⟨0, _⟩ => rfl)
  rw [val_main_v100_apply, e100, val_main_v99_apply, one_v98, val_main_v97_apply, one_v96, val_main_v95_apply,
    val_main_v94_apply, val_main_v93_apply, val_main_v92_apply, val_main_v91_apply, e92, val_main_v90_apply]
  simp only [Ideal.hostDivf_def, Ideal.addf_def, Ideal.hostUnary_exp_def, Ideal.hostNegf_def, Ideal.negf_def]
  show Ideal.logistic (_ + x10 (ix1 0)) = Ideal.logistic (_ + x10 (ix1 0))
  refine congrArg (fun s : EReal => Ideal.logistic (s + x10 (ix1 0))) ?_
  refine Finset.sum_congr rfl fun k _ => ?_
  have el : lidx_main_v90 (ix2 q 0) k = ix2 q k := funext fun a => Fin.ext (by match a with | ⟨0, _⟩ => rfl | ⟨1, _⟩ => rfl)
  have er : ridx_main_v90 (ix2 q 0) k = ix2 k 0 := funext fun a => Fin.ext (by match a with | ⟨0, _⟩ => rfl | ⟨1, _⟩ => rfl)
  rw [el, er, hidden_at]

end Cert.RefSide

end
-- ==== Proof.HostEnd.lean ====
/-
  The kernel program's result against the reference's.

  The third region leaves, at row q and column 0 of its 128-column output, the logistic of the last layer's value: the
  sum over the hidden coordinate of the rectified hidden value times column 0 of the padded weight, plus entry 0 of the
  padded bias. Column 0 of the padded weight is the weight column and entry 0 of the padded bias is the bias, so this is
  the reference's value at q. The last two host operations keep column 0 and drop the unit axis.
-/
import proofs.«107415_j44504451121629_1_alg».proof.Proof.Host2
import proofs.«107415_j44504451121629_1_alg».proof.Proof.RefSide
import Idealize.ShloMosaic.Lib.Pipeline.Value

set_option maxRecDepth 16384

noncomputable section

open scoped BigOperators

namespace Cert.KernelIdeal.HostSide

open Cert.KernelIdeal Cert.KernelIdeal.Gen Idealize.ShloMosaic Idealize.ShloMosaic.TcCoe Idealize.ShloMosaic.ValueIdx Idealize.SL.Sem Idealize.ShloMosaic.StableHlo Cert.LibHostJoin

variable (m : (ℓ : Loc nD τ sig) → Buf (Elt Ideal) ℓ) (ρ : Dev nD → PrngReg)

open Cert.KernelIdeal.Pad

set_option maxHeartbeats 8000000 in
/-- The returned buffer after the last stretch is the reference's result of the same arguments. -/
theorem result_eq (c : Dev nD)
    (h0 : ∀ (A : S50000x256.Idx → EReal) (B : S256x256.Idx → EReal) (O : S50000x256.Idx → EReal),
      V3 m ρ c main_arg2 = A → V3 m ρ c main_arg3 = B → (dat0 (F := Ideal) (V3 m ρ) c).arrAt 2 cfg0.N = O →
      ∀ (r : Fin 50000) (q : Fin 256), O (ix2 r q) = ∑ k : Fin 256, A (ix2 r k) * B (ix2 k q))
    (h1 : ∀ (A : S50000x256.Idx → EReal) (b : S1x256.Idx → EReal) (B : S256x256.Idx → EReal) (O : S50000x256.Idx → EReal),
      V5 m ρ c main_v44 = A → V5 m ρ c main_v45 = b → V5 m ρ c main_arg5 = B → (dat1 (F := Ideal) (V5 m ρ) c).arrAt 3 cfg1.N = O →
      ∀ (r : Fin 50000) (q : Fin 256), O (ix2 r q) = ∑ k : Fin 256, max (A (ix2 r k) + b (ix2 0 k)) 0 * B (ix2 k q))
    (h2 : ∀ (X0 X1 : S200000x256.Idx → EReal) (P1 : S256x256.Idx → EReal) (b1 : S1x256.Idx → EReal)
      (P2 : S256x128.Idx → EReal) (b2 : S1x128.Idx → EReal) (O : S200000x128.Idx → EReal),
      V7 m ρ c main_v71 = X0 → V7 m ρ c main_v80 = X1 → V7 m ρ c main_arg7 = P1 → V7 m ρ c main_v87 = b1 →
      V7 m ρ c main_v83 = P2 → V7 m ρ c main_v88 = b2 → (dat2 (F := Ideal) (V7 m ρ) c).arrAt 6 cfg2.N = O →
      ∀ (r : Fin 200000) (q : Fin 128), O (ix2 r q) = Ideal.logistic ((∑ k : Fin 256,
        max ((∑ j : Fin 256, (X0 (ix2 r j) * X1 (ix2 r j)) * P1 (ix2 j k)) + b1 (ix2 0 k)) 0 * P2 (ix2 k q)) + b2 (ix2 0 q))) :
    W9 m ρ c (Proc.devRef .tc main_v91) = Cert.ReferenceIdeal.ReadP.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps3 (W8 m ρ c) (Proc.devRef .tc main_v91) = _
  host_read
  have e89 : W8 m ρ c (Proc.devRef .tc main_v89) = (dat2 (F := Ideal) (V7 m ρ) c).arrAt 6 cfg2.N := W8_arr m ρ c 6
  rw [e89]
  obtain ⟨O, hO⟩ : ∃ O : S200000x128.Idx → EReal, (dat2 (F := Ideal) (V7 m ρ) c).arrAt 6 cfg2.N = O := ⟨_, rfl⟩
  rw [hO]
  have hrow := h2 _ _ _ _ _ _ O (at7_v71 m ρ c h0 h1) (at7_v80 m ρ c h0 h1) (at7_arg7 m ρ c) (at7_v87 m ρ c) (at7_v83 m ρ c)
    (at7_v88 m ρ c) hO
  funext i
  obtain ⟨q, rfl⟩ : ∃ q : Fin 200000, i = ix1 q := ⟨i 0, eq_ix1 i⟩
  show shapeCast _ (extractStridedSlice S200000x1 ![0, 0] O slices_S200000x128_S200000x1_0_0) shapeCasts_S200000x1_S200000 (ix1 q) = _
  rw [shapeCast_apply _ shapeCasts_S200000x1_S200000 (ix1 q) (ix2 q 0) (by
      rewrite [Shape.rowMajor_val_two, Shape.rowMajor_val_one]
      show q.val * 1 + 0 = q.val
      omega),
    extractStridedSlice_apply ![0, 0] O slices_S200000x128_S200000x1_0_0 (ix2 q 0) (ix2 q 0) (fun a => by
      match a with
      | ⟨0, _⟩ => show q.val = 0 + q.val; omega
      | ⟨1, _⟩ => show 0 = 0 + 0; rfl),
    hrow q 0, Cert.RefSide.out_at]
  have eb : shapeCast S1x128 (padB (m ((c : Thread nD τ).loc main_arg10))) shapeCasts_S128_S1x128 (ix2 0 0) = (m ((c : Thread nD τ).loc main_arg10)) (ix1 0) := by
    rw [shapeCast_apply _ shapeCasts_S128_S1x128 (ix2 0 0) (ix1 0) (by
      rewrite [Shape.rowMajor_val_two, Shape.rowMajor_val_one]
      rfl), padB_zero]
  rw [eb]
  simp only [padW_col0]

end Cert.KernelIdeal.HostSide

end
-- ==== Proof.lean ====
/-
  The kernel program against its reference, at the exact values.

  The kernel program is a two-layer graph convolution followed by a link predictor: three tiled regions (the first
  layer's matrix product; the bias, rectifier and second layer's product; the predictor's two layers and logistic, its
  last layer padded to 128 lanes) among stretches of host operations that build the normalised edge weights, aggregate
  each product over the edges, and gather the features of each query edge's two ends. The reference does the same steps
  with the host's own matrix products on whole arrays.

  Read at the extended reals a change of float format is the identity and a matrix product into a zero accumulator is
  the plain sum over the contracted coordinate, so each region's output array is, entry by entry, the reference's
  product of the same arrays: a block of 2000 rows depends only on those rows of the left operand, and the blocks tile
  the rows. The host stretches between the regions are the same operations in both programs, applied to equal arrays.
  Of the padded last layer only column 0 is kept, and there the padded weight and bias are the unpadded ones, so no
  term of the sum changes; the kernel's logistic is the reference's 1 / (1 + exp(-x)). No law used needs finiteness:
  the two sides are the same sums of the same terms.

  The frames of the two kernel programs are the generated ones; the reference's is its run with the result dropped;
  the idealization rewrote nothing, so there is nothing to preserve.
-/
import proofs.«107415_j44504451121629_1_alg».proof.Defs
import proofs.«107415_j44504451121629_1_alg».proof.Proof.Gen.Kernel
import proofs.«107415_j44504451121629_1_alg».proof.Proof.Gen.Kernel.Frame
import proofs.«107415_j44504451121629_1_alg».proof.Proof.Gen.KernelIdeal
import proofs.«107415_j44504451121629_1_alg».proof.Proof.Gen.KernelIdeal.Frame
import proofs.«107415_j44504451121629_1_alg».proof.Proof.Gen.ReferenceIdeal
import proofs.«107415_j44504451121629_1_alg».proof.Proof.Gen.Pre_finite_inputs
import proofs.«107415_j44504451121629_1_alg».proof.Proof.KernelRun
import proofs.«107415_j44504451121629_1_alg».proof.Proof.RefRunP
import proofs.«107415_j44504451121629_1_alg».proof.Proof.RefReadP
import proofs.«107415_j44504451121629_1_alg».proof.Proof.Region0
import proofs.«107415_j44504451121629_1_alg».proof.Proof.Region1
import proofs.«107415_j44504451121629_1_alg».proof.Proof.Region2
import proofs.«107415_j44504451121629_1_alg».proof.Proof.HostEnd

set_option maxRecDepth 16384

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments the two idealized programs end with the same result: the kernel program's
    returned buffer holds the last boundary's contents, which are the reference's result term of the same arguments. -/
theorem algebraic : Cert.algebraic_KernelIdeal_ReferenceIdeal := by
  intro m ρ m' ρ' _ hagree
  refine ⟨fun c => Cert.KernelIdeal.Gen.W9 m ρ c (Proc.devRef .tc Cert.KernelIdeal.main_v91),
    Cert.KernelIdeal.WholeRun.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10⟩ := hagree c
  rw [Cert.ReferenceIdeal.ReadP.val_main_v100_eq, e0, e1, e2, e3, e4, e5, e6, e7, e8, e9, e10]
  exact (Cert.KernelIdeal.HostSide.result_eq m ρ c
    (fun A B O hA hB hO r q => Cert.KernelIdeal.Regions.arr0_at (Cert.KernelIdeal.Gen.V3 m ρ) c A B O hA hB hO r q)
    (fun A b B O hA hb hB hO r q => Cert.KernelIdeal.Regions.arr1_at (Cert.KernelIdeal.Gen.V5 m ρ) c A b B O hA hb hB hO r q)
    (fun X0 X1 P1 b1 P2 b2 O hX0 hX1 hP1 hb1 hP2 hb2 hO r q =>
      Cert.KernelIdeal.Regions.arr2_at (Cert.KernelIdeal.Gen.V7 m ρ) c X0 X1 P1 b1 P2 b2 O hX0 hX1 hP1 hb1 hP2 hb2 hO r q)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
